-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x8x4096x3 : Shape := ⟨4, ![2, 8, 4096, 3]⟩
abbrev S_ : Shape := ⟨0, ![]⟩

class Facts : Prop where
  bcast_S_S2x8x4096x3 : S_.BroadcastsInDim S2x8x4096x3 (![] : Fin 0 → Fin S2x8x4096x3.rank)
  reducesTo_S2x8x4096x3_S_d0_1_2_3 : S2x8x4096x3.ReducesTo [0, 1, 2, 3] S_
  h_S_ : 0 < S_.numel

variable [Facts]

def fn {F : FTy → Type} [FloatOps F] (main_arg0 : FVec F S2x8x4096x3 .f32) (main_arg1 : FVec F S2x8x4096x3 .f32) : IVec S_ 1 :=
  let main_v0 : FVec F S2x8x4096x3 .f32 := Host.absf main_arg0
  let main_cst : FVec F S_ .f32 := constant S_ .f32 0x7F800000#32
  let main_v1 : FVec F S2x8x4096x3 .f32 := broadcastInDim S2x8x4096x3 ![] bcast_S_S2x8x4096x3 main_cst
  let main_v2 : IVec S2x8x4096x3 1 := cmpf .olt main_v0 main_v1
  let main_c : IVec S_ 1 := constantI S_ 1 1#1
  let main_v3 : IVec S_ 1 := (fun x v => Host.reduce IntOp.andi x v reducesTo_S2x8x4096x3_S_d0_1_2_3 h_S_) main_v2 main_c
  let main_v4 : FVec F S2x8x4096x3 .f32 := Host.absf main_arg1
  let main_cst_0 : FVec F S_ .f32 := constant S_ .f32 0x7F800000#32
  let main_v5 : FVec F S2x8x4096x3 .f32 := broadcastInDim S2x8x4096x3 ![] bcast_S_S2x8x4096x3 main_cst_0
  let main_v6 : IVec S2x8x4096x3 1 := cmpf .olt main_v4 main_v5
  let main_c_1 : IVec S_ 1 := constantI S_ 1 1#1
  let main_v7 : IVec S_ 1 := (fun x v => Host.reduce IntOp.andi x v reducesTo_S2x8x4096x3_S_d0_1_2_3 h_S_) main_v6 main_c_1
  let main_v8 : IVec S_ 1 := andi main_v3 main_v7
  main_v8
-- ==== Kernel.lean ====
abbrev S2x8x4096x3 : Shape := ⟨4, ![2, 8, 4096, 3]⟩
abbrev S16x4096x3 : Shape := ⟨3, ![16, 4096, 3]⟩
abbrev S16x8x128 : Shape := ⟨3, ![16, 8, 128]⟩
abbrev S1x256x3 : Shape := ⟨3, ![1, 256, 3]⟩
abbrev S1x4096x3 : Shape := ⟨3, ![1, 4096, 3]⟩
abbrev S1x8x128 : Shape := ⟨3, ![1, 8, 128]⟩
abbrev S1x4096 : Shape := ⟨2, ![1, 4096]⟩
abbrev S1x1 : Shape := ⟨2, ![1, 1]⟩
abbrev S256x3 : Shape := ⟨2, ![256, 3]⟩
abbrev S4096x3 : Shape := ⟨2, ![4096, 3]⟩
abbrev S256 : Shape := ⟨1, ![256]⟩
abbrev S256x1 : Shape := ⟨2, ![256, 1]⟩
abbrev S4096 : Shape := ⟨1, ![4096]⟩
abbrev S4096x1 : Shape := ⟨2, ![4096, 1]⟩
abbrev S256x4096 : Shape := ⟨2, ![256, 4096]⟩
abbrev S1 : Shape := ⟨1, ![1]⟩
abbrev S8x128 : Shape := ⟨2, ![8, 128]⟩
abbrev S16x1x1 : Shape := ⟨3, ![16, 1, 1]⟩
abbrev S16 : Shape := ⟨1, ![16]⟩
abbrev S_ : Shape := ⟨0, ![]⟩

abbrev nBuf : Space → Nat
  | .hbm => 11
  | .vmem => 8
  | .smem => 0
  | _ => 0

abbrev bufTy : (tb : Table) → Fin (tcTables nBuf tb) → BufTy
  | .hbm, ⟨0, _⟩ => ⟨S2x8x4096x3, .f32⟩
  | .hbm, ⟨1, _⟩ => ⟨S2x8x4096x3, .f32⟩
  | .hbm, ⟨2, _⟩ => ⟨S16x4096x3, .f32⟩
  | .hbm, ⟨3, _⟩ => ⟨S16x4096x3, .f32⟩
  | .hbm, ⟨4, _⟩ => ⟨S16x8x128, .f32⟩
  | .hbm, ⟨5, _⟩ => ⟨S16x1x1, .f32⟩
  | .hbm, ⟨6, _⟩ => ⟨S16, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .local _ .vmem, ⟨0, _⟩ => ⟨S1x256x3, .f32⟩
  | .local _ .vmem, ⟨1, _⟩ => ⟨S1x256x3, .f32⟩
  | .local _ .vmem, ⟨2, _⟩ => ⟨S1x4096x3, .f32⟩
  | .local _ .vmem, ⟨3, _⟩ => ⟨S1x4096x3, .f32⟩
  | .local _ .vmem, ⟨4, _⟩ => ⟨S1x8x128, .f32⟩
  | .local _ .vmem, ⟨5, _⟩ => ⟨S1x8x128, .f32⟩
  | .local _ .vmem, ⟨6, _⟩ => ⟨S1x4096, .f32⟩
  | .local _ .vmem, ⟨7, _⟩ => ⟨S1x1, .f32⟩
  | _, _ => ⟨S2x8x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 16], ![false, false]⟩

def k0_cond2 (i : grid0.Coords) : BitVec 1 :=
  let arg1 : BitVec 32 := BitVec.ofNat 32 (i 1).val
  let c15_i32 : BitVec 32 := 15#32
  let v40 : BitVec 1 := Scalar.cmpi .eq arg1 c15_i32
  let v41 : BitVec 32 := Scalar.extui v40
  let c0_i32_21 : BitVec 32 := 0#32
  let v42 : BitVec 1 := Scalar.cmpi .ne v41 c0_i32_21
  v42

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S2x8x4096x3_S16x4096x3 : S2x8x4096x3.ShapeCasts S16x4096x3
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x256x3_S1x256x3_0_0_0 : ∀ a, (![0, 0, 0] : Fin 3 → Nat) a + S1x256x3.size a ≤ S1x256x3.size a
  h_S1x256x3 : 0 < S1x256x3.numel
  shapeCasts_S1x256x3_S256x3 : S1x256x3.ShapeCasts S256x3
  inb_S1x4096x3_S1x4096x3_0_0_0 : ∀ a, (![0, 0, 0] : Fin 3 → Nat) a + S1x4096x3.size a ≤ S1x4096x3.size a
  h_S1x4096x3 : 0 < S1x4096x3.numel
  shapeCasts_S1x4096x3_S4096x3 : S1x4096x3.ShapeCasts S4096x3
  reduces_S256x3_S256 : S256x3.Reduces [1] S256
  shapeCasts_S256_S256x1 : S256.ShapeCasts S256x1
  reduces_S4096x3_S4096 : S4096x3.Reduces [1] S4096
  shapeCasts_S4096_S4096x1 : S4096.ShapeCasts S4096x1
  broadcasts_S256x1_S256x4096 : S256x1.Broadcasts S256x4096
  transposes_S4096x1_p1_0_S1x4096 : S4096x1.Transposes [1, 0] S1x4096
  broadcasts_S1x4096_S256x4096 : S1x4096.Broadcasts S256x4096
  reduces_S256x4096_S4096 : S256x4096.Reduces [0] S4096
  shapeCasts_S4096_S1x4096 : S4096.ShapeCasts S1x4096
  reduces_S256x4096_S256 : S256x4096.Reduces [1] S256
  reduces_S256x1_S1 : S256x1.Reduces [0] S1
  shapeCasts_S1_S1x1 : S1.ShapeCasts S1x1
  reduces_S1x4096_S1 : S1x4096.Reduces [1] S1
  inpos_S1x1_p0_0 : ∀ a, (![0, 0] : Fin 2 → Nat) a < S1x1.size a
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  slices_S16x8x128_S16x1x1_0_0_0 : S16x8x128.Slices ![0, 0, 0] S16x1x1
  shapeCasts_S16x1x1_S16 : S16x1x1.ShapeCasts S16
  reducesTo_S16_S_d0 : S16.ReducesTo [0] S_
  h_S_ : 0 < S_.numel
  dot_S256x3_S4096x3_S256x4096_1_1_0_0_n_n_wf : DotDims.WF S256x3 S4096x3 S256x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x3.size a ≤ S16x4096x3.size a
  hwx0_0 : ∀ i : grid0.Coords, EltTy.bits .f32 = 32 ∨ (Rect.block (s := S16x4096x3) S1x256x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x3.size a ≤ S16x4096x3.size a
  hwx0_1 : ∀ i : grid0.Coords, EltTy.bits .f32 = 32 ∨ (Rect.block (s := S16x4096x3) S1x4096x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x128.size a ≤ S16x8x128.size a
  hwx0_2 : ∀ i : grid0.Coords, EltTy.bits .f32 = 32 ∨ (Rect.block (s := S16x8x128) S1x8x128.size (cc0_transform_2 i) (hinb0_2 i)).WholeWords (EltTy.packing .f32)

variable [Facts₀]

def dot_S256x3_S4096x3_S256x4096_1_1_0_0_n_n : DotDims S256x3 S4096x3 S256x4096 where
  lhsContracting := [1]
  rhsContracting := [1]
  lhsNonContracting := [0]
  rhsNonContracting := [0]
  lhsBatch := []
  rhsBatch := []
  wf := dot_S256x3_S4096x3_S256x4096_1_1_0_0_n_n_wf

abbrev win0_0 : Pipeline.Window sig grid0 :=
  Pipeline.Window.ofSpec (Memref.whole main_v0) S1x256x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x4096x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S2x8x4096x3 : Shape := ⟨4, ![2, 8, 4096, 3]⟩
abbrev S16x4096x3 : Shape := ⟨3, ![16, 4096, 3]⟩
abbrev S_ : Shape := ⟨0, ![]⟩
abbrev S16x4096 : Shape := ⟨2, ![16, 4096]⟩
abbrev S16x4096x1 : Shape := ⟨3, ![16, 4096, 1]⟩
abbrev S16x4096x4096 : Shape := ⟨3, ![16, 4096, 4096]⟩
abbrev S16x1x4096 : Shape := ⟨3, ![16, 1, 4096]⟩
abbrev S16 : Shape := ⟨1, ![16]⟩

abbrev nBuf : Space → Nat
  | .hbm => 44
  | .vmem => 0
  | .smem => 0
  | _ => 0

abbrev bufTy : (tb : Table) → Fin (tcTables nBuf tb) → BufTy
  | .hbm, ⟨0, _⟩ => ⟨S2x8x4096x3, .f32⟩
  | .hbm, ⟨1, _⟩ => ⟨S2x8x4096x3, .f32⟩
  | .hbm, ⟨2, _⟩ => ⟨S16x4096x3, .f32⟩
  | .hbm, ⟨3, _⟩ => ⟨S16x4096x3, .f32⟩
  | .hbm, ⟨4, _⟩ => ⟨S16x4096x3, .f32⟩
  | .hbm, ⟨5, _⟩ => ⟨S_, .f32⟩
  | .hbm, ⟨6, _⟩ => ⟨S16x4096, .f32⟩
  | .hbm, ⟨7, _⟩ => ⟨S16x4096x1, .f32⟩
  | .hbm, ⟨8, _⟩ => ⟨S16x4096x3, .f32⟩
  | .hbm, ⟨9, _⟩ => ⟨S_, .f32⟩
  | .hbm, ⟨10, _⟩ => ⟨S16x4096, .f32⟩
  | .hbm, ⟨11, _⟩ => ⟨S16x4096x1, .f32⟩
  | .hbm, ⟨12, _⟩ => ⟨S16x4096x4096, .f32⟩
  | .hbm, ⟨13, _⟩ => ⟨S_, .f32⟩
  | .hbm, ⟨14, _⟩ => ⟨S16x4096x4096, .f32⟩
  | .hbm, ⟨15, _⟩ => ⟨S16x4096x4096, .f32⟩
  | .hbm, ⟨16, _⟩ => ⟨S16x4096x4096, .f32⟩
  | .hbm, ⟨17, _⟩ => ⟨S16x4096x4096, .f32⟩
  | .hbm, ⟨18, _⟩ => ⟨S16x1x4096, .f32⟩
  | .hbm, ⟨19, _⟩ => ⟨S16x4096x4096, .f32⟩
  | .hbm, ⟨20, _⟩ => ⟨S16x4096x4096, .f32⟩
  | .hbm, ⟨21, _⟩ => ⟨S_, .f32⟩
  | .hbm, ⟨22, _⟩ => ⟨S16x4096x4096, .f32⟩
  | .hbm, ⟨23, _⟩ => ⟨S16x4096x4096, .f32⟩
  | .hbm, ⟨24, _⟩ => ⟨S16x4096x4096, .f32⟩
  | .hbm, ⟨25, _⟩ => ⟨S_, .f32⟩
  | .hbm, ⟨26, _⟩ => ⟨S16x4096, .f32⟩
  | .hbm, ⟨27, _⟩ => ⟨S_, .f32⟩
  | .hbm, ⟨28, _⟩ => ⟨S16x4096, .f32⟩
  | .hbm, ⟨29, _⟩ => ⟨S_, .f32⟩
  | .hbm, ⟨30, _⟩ => ⟨S16, .f32⟩
  | .hbm, ⟨31, _⟩ => ⟨S_, .f32⟩
  | .hbm, ⟨32, _⟩ => ⟨S16, .f32⟩
  | .hbm, ⟨33, _⟩ => ⟨S16, .f32⟩
  | .hbm, ⟨34, _⟩ => ⟨S_, .f32⟩
  | .hbm, ⟨35, _⟩ => ⟨S16, .f32⟩
  | .hbm, ⟨36, _⟩ => ⟨S_, .f32⟩
  | .hbm, ⟨37, _⟩ => ⟨S16, .f32⟩
  | .hbm, ⟨38, _⟩ => ⟨S16, .f32⟩
  | .hbm, ⟨39, _⟩ => ⟨S16, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | _, _ => ⟨S2x8x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev main_cst_4 : Ref sig .tc := ⟨.hbm, 27, rfl⟩
abbrev main_v20 : Ref sig .tc := ⟨.hbm, 28, rfl⟩
abbrev main_cst_5 : Ref sig .tc := ⟨.hbm, 29, rfl⟩
abbrev main_v21 : Ref sig .tc := ⟨.hbm, 30, rfl⟩
abbrev main_cst_6 : Ref sig .tc := ⟨.hbm, 31, rfl⟩
abbrev main_v22 : Ref sig .tc := ⟨.hbm, 32, rfl⟩
abbrev main_v23 : Ref sig .tc := ⟨.hbm, 33, rfl⟩
abbrev main_cst_7 : Ref sig .tc := ⟨.hbm, 34, rfl⟩
abbrev main_v24 : Ref sig .tc := ⟨.hbm, 35, rfl⟩
abbrev main_cst_8 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_9 : Ref sig .tc := ⟨.hbm, 40, rfl⟩
abbrev main_v28 : Ref sig .tc := ⟨.hbm, 41, rfl⟩
abbrev main_cst_10 : Ref sig .tc := ⟨.hbm, 42, rfl⟩
abbrev main_v29 : Ref sig .tc := ⟨.hbm, 43, rfl⟩

abbrev nD : Nat := 1
abbrev τ : Topo := Topo.v7x

variable {F : FTy → Type} [FloatOps F]

class Facts₀ : Prop where
  shapeCasts_S2x8x4096x3_S16x4096x3 : S2x8x4096x3.ShapeCasts S16x4096x3
  reducesTo_S16x4096x3_S16x4096_d2 : S16x4096x3.ReducesTo [2] S16x4096
  h_S_ : 0 < S_.numel
  bcast_S16x4096_S16x4096x1_0_1 : S16x4096.BroadcastsInDim S16x4096x1 (![0, 1] : Fin 2 → Fin S16x4096x1.rank)
  bcast_S_S16x4096x4096 : S_.BroadcastsInDim S16x4096x4096 (![] : Fin 0 → Fin S16x4096x4096.rank)
  bcast_S16x4096x1_S16x4096x4096_0_1_2 : S16x4096x1.BroadcastsInDim S16x4096x4096 (![0, 1, 2] : Fin 3 → Fin S16x4096x4096.rank)
  transposes_S16x4096x1_S16x1x4096_0_2_1 : S16x4096x1.Transposes [0, 2, 1] S16x1x4096
  bcast_S16x1x4096_S16x4096x4096_0_1_2 : S16x1x4096.BroadcastsInDim S16x4096x4096 (![0, 1, 2] : Fin 3 → Fin S16x4096x4096.rank)
  reducesTo_S16x4096x4096_S16x4096_d1 : S16x4096x4096.ReducesTo [1] S16x4096
  reducesTo_S16x4096x4096_S16x4096_d2 : S16x4096x4096.ReducesTo [2] S16x4096
  reducesTo_S16x4096_S16_d1 : S16x4096.ReducesTo [1] S16
  bcast_S_S16 : S_.BroadcastsInDim S16 (![] : Fin 0 → Fin S16.rank)
  reducesTo_S16_S_d0 : S16.ReducesTo [0] S_
  dot_S16x4096x3_S16x4096x3_S16x4096x4096_2_2_1_1_0_0_wf : DotDims.WF S16x4096x3 S16x4096x3 S16x4096x4096 [2] [2] [1] [1] [0] [0]

variable [Facts₀]

def dot_S16x4096x3_S16x4096x3_S16x4096x4096_2_2_1_1_0_0 : DotDims S16x4096x3 S16x4096x3 S16x4096x4096 where
  lhsContracting := [2]
  rhsContracting := [2]
  lhsNonContracting := [1]
  rhsNonContracting := [1]
  lhsBatch := [0]
  rhsBatch := [0]
  wf := dot_S16x4096x3_S16x4096x3_S16x4096x4096_2_2_1_1_0_0_wf

class Facts : Prop extends Facts₀ where

variable [Facts]
-- ==== Proof.ChamferSpec.lean ====
/-
  The Chamfer loss of sixteen pairs of clouds of 4096 points in three coordinates, as one function of the two
  argument arrays over the extended reals, and the two regroupings that join a tiled evaluation to the plain one:

  * a minimum (a sum) over the 4096 points taken tile by tile, 256 points at a time, is the minimum (the sum) over
    the points below the tile's end (minUpTo_tile, sumUpTo_tile); after the sixteenth tile that is every point;
  * dividing a sum of two terms by the real 4096 is dividing each and adding: the factor 1/4096 is a
    nonnegative real, and multiplication by such a factor distributes over the sum of any two extended reals
    (div_add_div).
-/
import Idealize.ShloMosaic.PureOps.Ideal
import Idealize.ShloMosaic.PureOps.Ideal.Laws
import Idealize.ShloMosaic.Lib.ValueIdx

noncomputable section

namespace Chamfer

open Idealize.ShloMosaic

/-- Sixteen clouds of 4096 points with three coordinates each. -/
abbrev Cloud := Fin 16 → Fin 4096 → Fin 3 → EReal

/-- The argument arrays' shape, and the shape of sixteen clouds. -/
abbrev SArg : Shape := ⟨4, ![2, 8, 4096, 3]⟩
abbrev SCloud : Shape := ⟨3, ![16, 4096, 3]⟩

/-- The sixteen clouds of an argument array: its two leading axes merged (both programs begin with this reshape). -/
def cloudOf (x : SArg.Idx → EReal) (h : SArg.ShapeCasts SCloud) : Cloud :=
  fun b i k => shapeCast SCloud x h (ValueIdx.ix3 b i k)

/-- A rank-1 index set is its coordinate's range, so a sum over it is the sum over the coordinate. -/
def idxEquiv1 {n : ℕ} : (⟨1, ![n]⟩ : Shape).Idx ≃ Fin n where
  toFun i := i 0
  invFun a := ValueIdx.ix1 a
  left_inv i := (ValueIdx.eq_ix1 i).symm
  right_inv _ := rfl

theorem sum_idx1 {M : Type*} [AddCommMonoid M] {n : ℕ} (f : (⟨1, ![n]⟩ : Shape).Idx → M) :
    ∑ i, f i = ∑ a : Fin n, f (ValueIdx.ix1 a) := by
  rw [← Equiv.sum_comp (idxEquiv1 (n := n)).symm f]
  rfl

/-! ## The float words both programs spell, as extended reals -/

abbrev wZero : EReal := Ideal.ofBits .f32 0x00000000#32
abbrev wTwo : EReal := Ideal.ofBits .f32 0x40000000#32
abbrev wInf : EReal := Ideal.ofBits .f32 0x7F800000#32
abbrev wN : EReal := Ideal.ofBits .f32 0x45800000#32
abbrev wB : EReal := Ideal.ofBits .f32 0x41800000#32

/-- The word 0x45800000 denotes the real 4096. -/
theorem wN_eq : wN = ((4096 : ℝ) : EReal) := by
  simp [wN, Ideal.ofBits, Ideal.ieee, -EReal.coe_mul]; norm_num

/-! ## The loss -/

/-- A point's squared norm. -/
def sqNorm (p : Cloud) (b : Fin 16) (i : Fin 4096) : EReal := ∑ k : Fin 3, p b i k * p b i k

/-- The inner product of prediction point i and target point j of cloud b. -/
def inner (p t : Cloud) (b : Fin 16) (i j : Fin 4096) : EReal := ∑ k : Fin 3, p b i k * t b j k

/-- Their distance, by ‖x‖² − 2⟨x, y⟩ + ‖y‖² clamped at zero. -/
def dist (p t : Cloud) (b : Fin 16) (i j : Fin 4096) : EReal :=
  Ideal.sqrt (max (sqNorm p b i - wTwo * inner p t b i j + sqNorm t b j) wZero)

/-- Target point j's distance to the nearest prediction point. -/
def nearPred (p t : Cloud) (b : Fin 16) (j : Fin 4096) : EReal :=
  (Finset.univ : Finset (Fin 4096)).fold min wInf fun i => dist p t b i j

/-- Prediction point i's distance to the nearest target point. -/
def nearTgt (p t : Cloud) (b : Fin 16) (i : Fin 4096) : EReal :=
  (Finset.univ : Finset (Fin 4096)).fold min wInf fun j => dist p t b i j

/-- One cloud pair's loss: the two sums of nearest distances, over the number of points. -/
def cloudLoss (p t : Cloud) (b : Fin 16) : EReal :=
  Ideal.div ((∑ j : Fin 4096, nearPred p t b j) + ∑ i : Fin 4096, nearTgt p t b i) wN

/-- The loss: the mean over the sixteen cloud pairs. -/
def loss (p t : Cloud) : EReal := Ideal.div (wZero + ∑ b : Fin 16, cloudLoss p t b) wB

/-! ## A minimum and a sum taken tile by tile -/

/-- The minimum of g over the points below k (from the word for +∞). -/
def minUpTo (g : Fin 4096 → EReal) (k : ℕ) : EReal :=
  (Finset.univ.filter fun i : Fin 4096 => i.val < k).fold min wInf g

/-- The sum of g over the points below k. -/
def sumUpTo (g : Fin 4096 → EReal) (k : ℕ) : EReal :=
  ∑ i ∈ Finset.univ.filter (fun i : Fin 4096 => i.val < k), g i

/-- Point r of tile n. -/
abbrev tilePt (n : ℕ) (hn : n < 16) (r : Fin 256) : Fin 4096 := ⟨256 * n + r.val, by have := r.isLt; omega⟩

theorem minUpTo_zero (g : Fin 4096 → EReal) : minUpTo g 0 = wInf := by
  unfold minUpTo
  rw [Finset.filter_false_of_mem (fun i _ => Nat.not_lt_zero _), Finset.fold_empty]

theorem minUpTo_all (g : Fin 4096 → EReal) : minUpTo g 4096 = (Finset.univ : Finset (Fin 4096)).fold min wInf g := by
  unfold minUpTo
  rw [Finset.filter_true_of_mem (fun i _ => i.isLt)]

/-- The minimum below the end of tile n is the minimum below its start and over the tile. -/
theorem minUpTo_tile (g : Fin 4096 → EReal) (n : ℕ) (hn : n < 16) :
    minUpTo g (256 * (n + 1))
      = min (minUpTo g (256 * n)) ((Finset.univ : Finset (Fin 256)).fold min wInf fun r => g (tilePt n hn r)) := by
  refine eq_of_forall_le_iff fun c => ?_
  unfold minUpTo
  rw [le_min_iff, Finset.le_fold_min, Finset.le_fold_min, Finset.le_fold_min]
  constructor
  · rintro ⟨h0, h⟩
    refine ⟨⟨h0, fun i hi => h i ?_⟩, h0, fun r _ => h _ ?_⟩
    · rw [Finset.mem_filter] at hi ⊢
      exact ⟨hi.1, by have := hi.2; omega⟩
    · rw [Finset.mem_filter]
      exact ⟨Finset.mem_univ _, by have := r.isLt; show 256 * n + r.val < 256 * (n + 1); omega⟩
  · rintro ⟨⟨h0, h1⟩, -, h2⟩
    refine ⟨h0, fun i hi => ?_⟩
    rw [Finset.mem_filter] at hi
    by_cases hlt : i.val < 256 * n
    · exact h1 i (Finset.mem_filter.2 ⟨Finset.mem_univ _, hlt⟩)
    · have hr : i.val - 256 * n < 256 := by have := hi.2; omega
      have e : tilePt n hn ⟨i.val - 256 * n, hr⟩ = i := Fin.ext (by show 256 * n + (i.val - 256 * n) = i.val; omega)
      have := h2 ⟨i.val - 256 * n, hr⟩ (Finset.mem_univ _)
      rwa [e] at this

theorem sumUpTo_zero (g : Fin 4096 → EReal) : sumUpTo g 0 = 0 := by
  unfold sumUpTo
  rw [Finset.filter_false_of_mem (fun i _ => Nat.not_lt_zero _), Finset.sum_empty]

theorem sumUpTo_all (g : Fin 4096 → EReal) : sumUpTo g 4096 = ∑ i : Fin 4096, g i := by
  unfold sumUpTo
  rw [Finset.filter_true_of_mem (fun i _ => i.isLt)]

/-- The sum below the end of tile n is the sum below its start plus the tile's. -/
theorem sumUpTo_tile (g : Fin 4096 → EReal) (n : ℕ) (hn : n < 16) :
    sumUpTo g (256 * (n + 1)) = sumUpTo g (256 * n) + ∑ r : Fin 256, g (tilePt n hn r) := by
  unfold sumUpTo
  have hinj : Function.Injective (tilePt n hn) := fun r r' e => Fin.ext (by
    have := congrArg Fin.val e
    simp only [tilePt] at this
    omega)
  have hsplit : (Finset.univ.filter fun i : Fin 4096 => i.val < 256 * (n + 1))
      = (Finset.univ.filter fun i : Fin 4096 => i.val < 256 * n) ∪ Finset.univ.map ⟨tilePt n hn, hinj⟩ := by
    ext i
    simp only [Finset.mem_filter, Finset.mem_univ, true_and, Finset.mem_union, Finset.mem_map,
      Function.Embedding.coeFn_mk]
    constructor
    · intro hi
      by_cases hlt : i.val < 256 * n
      · exact Or.inl hlt
      · exact Or.inr ⟨⟨i.val - 256 * n, by omega⟩, Fin.ext (by show 256 * n + (i.val - 256 * n) = i.val; omega)⟩
    · rintro (hlt | ⟨r, rfl⟩)
      · omega
      · have := r.isLt; show 256 * n + r.val < 256 * (n + 1); omega
  have hdisj : Disjoint (Finset.univ.filter fun i : Fin 4096 => i.val < 256 * n)
      (Finset.univ.map ⟨tilePt n hn, hinj⟩) := by
    rw [Finset.disjoint_left]
    intro i hi hi'
    rw [Finset.mem_filter] at hi
    obtain ⟨r, -, rfl⟩ := Finset.mem_map.1 hi'
    have : 256 * n + r.val < 256 * n := hi.2
    omega
  rw [hsplit, Finset.sum_union hdisj, Finset.sum_map]
  rfl

/-! ## Dividing a sum by the number of points -/

/-- Over the real 4096 the quotient of a sum is the sum of the quotients, for any two extended reals. -/
theorem div_add_div (a b : EReal) : Ideal.div a wN + Ideal.div b wN = Ideal.div (a + b) wN := by
  rw [wN_eq, Ideal.div_coe (by norm_num : (4096 : ℝ) ≠ 0), Ideal.div_coe (by norm_num : (4096 : ℝ) ≠ 0),
    Ideal.div_coe (by norm_num : (4096 : ℝ) ≠ 0)]
  exact (EReal.right_distrib_of_nonneg_of_ne_top (by exact_mod_cast (by norm_num : (0 : ℝ) ≤ 1 / 4096))
    (EReal.coe_ne_top _) a b).symm

end Chamfer

end
-- ==== Proof.KernelPayloads.lean ====
/-
  What the kernel body computes from the blocks it loads, read at an index over the extended reals: the tile of
  distances between the 256 prediction points of a block and the 4096 target points, its column minima folded into
  the running minima, its row minima summed into the running sum, and the last step's quotient.
-/
import proofs.«124083_j42932493091334_2_alg».proof.Proof.Gen.KernelIdeal.Skeleton
import proofs.«124083_j42932493091334_2_alg».proof.Proof.ChamferSpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.TcCoe
open Idealize.ShloMosaic.ValueIdx Chamfer

/-- The distance between row r of a prediction block and target point j of a target block. -/
def tileDist (x0 : Vec Ideal S1x256x3 .f32) (x1 : Vec Ideal S1x4096x3 .f32) (r : Fin 256) (j : Fin 4096) : EReal :=
  Ideal.sqrt (max ((∑ k : Fin 3, x0 (ix3 (0 : Fin 1) r k) * x0 (ix3 (0 : Fin 1) r k))
      - wTwo * (∑ k : Fin 3, x0 (ix3 (0 : Fin 1) r k) * x1 (ix3 (0 : Fin 1) j k))
      + ∑ k : Fin 3, x1 (ix3 (0 : Fin 1) j k) * x1 (ix3 (0 : Fin 1) j k)) wZero)

/-! ## Layout operations on a column, read at an index -/

section Column
variable {α : Type}

/-- An `[a]` array cast to `[a, 1]` reads, at `(i, u)`, the operand at `i`, whatever the unit coordinate `u`. -/
private theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
private theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Column

/-! ## The reductions over one axis, read at an index -/

/-- A sum over the lanes of an `[a, b]` vector from the zero word is, at row `r`, the sum of the row's entries. -/
private theorem sumLanes_apply {a b : ℕ} (v : FVec Ideal ⟨2, ![a, b]⟩ .f32) (h : Shape.Reduces ⟨2, ![a, b]⟩ [1] ⟨1, ![a]⟩)
    (r : Fin a) :
    multiReduction (F := Ideal) .add [1] ⟨1, ![a]⟩ v 0x00000000#32 h (.inl rfl) rfl (ix1 r) = ∑ k : Fin b, v (ix2 r k) := by
  refine (Ideal.multiReduction_add_single v 0x00000000#32 h (.inl rfl) rfl (ix1 r)).trans ?_
  exact Finset.sum_congr rfl fun k _ => congrArg v (funext fun c => Fin.ext (by
    match c with
    | ⟨0, _⟩ => rfl
    | ⟨1, _⟩ => rfl))

/-- A sum over the rows of an `[a, b]` vector from the zero word is, at column `c`, the sum of the column's entries. -/
private theorem sumRows_apply {a b : ℕ} (v : FVec Ideal ⟨2, ![a, b]⟩ .f32) (h : Shape.Reduces ⟨2, ![a, b]⟩ [0] ⟨1, ![b]⟩)
    (c : Fin b) :
    multiReduction (F := Ideal) .add [0] ⟨1, ![b]⟩ v 0x00000000#32 h (.inl rfl) rfl (ix1 c) = ∑ k : Fin a, v (ix2 k c) := by
  refine (Ideal.multiReduction_add_single v 0x00000000#32 h (.inl rfl) rfl (ix1 c)).trans ?_
  exact Finset.sum_congr rfl fun k _ => congrArg v (funext fun d => Fin.ext (by
    match d with
    | ⟨0, _⟩ => rfl
    | ⟨1, _⟩ => rfl))

/-- A minimum over the rows of an `[a, b]` vector from the word for +∞ is, at column `c`, the least of the column's
    entries and that word's value. -/
private theorem minRows_apply {a b : ℕ} (v : FVec Ideal ⟨2, ![a, b]⟩ .f32) (h : Shape.Reduces ⟨2, ![a, b]⟩ [0] ⟨1, ![b]⟩)
    (c : Fin b) :
    multiReduction (F := Ideal) .minimumf [0] ⟨1, ![b]⟩ v 0x7F800000#32 h (.inl rfl) rfl (ix1 c)
      = (Finset.univ : Finset (Fin a)).fold min (Ideal.ofBits .f32 0x7F800000#32) fun k => v (ix2 k c) := by
  refine (multiReduction_minimumf_eq_fold v 0x7F800000#32 h (.inl rfl) rfl (ix1 c)).trans ?_
  refine (h.fold_filter_drop_single _ _ v (ix1 c)).trans ?_
  exact Finset.fold_congr fun k _ => congrArg v (funext fun d => Fin.ext (by
    match d with
    | ⟨0, _⟩ => rfl
    | ⟨1, _⟩ => rfl))

/-- A minimum over the lanes of an `[a, b]` vector from the word for +∞ is, at row `r`, the least of the row's
    entries and that word's value. -/
private theorem minLanes_apply {a b : ℕ} (v : FVec Ideal ⟨2, ![a, b]⟩ .f32) (h : Shape.Reduces ⟨2, ![a, b]⟩ [1] ⟨1, ![a]⟩)
    (r : Fin a) :
    multiReduction (F := Ideal) .minimumf [1] ⟨1, ![a]⟩ v 0x7F800000#32 h (.inl rfl) rfl (ix1 r)
      = (Finset.univ : Finset (Fin b)).fold min (Ideal.ofBits .f32 0x7F800000#32) fun k => v (ix2 r k) := by
  refine (multiReduction_minimumf_eq_fold v 0x7F800000#32 h (.inl rfl) rfl (ix1 r)).trans ?_
  refine (h.fold_filter_drop_single _ _ v (ix1 r)).trans ?_
  exact Finset.fold_congr fun k _ => congrArg v (funext fun d => Fin.ext (by
    match d with
    | ⟨0, _⟩ => rfl
    | ⟨1, _⟩ => rfl))

/-! ## The product of a block of points with the transpose of another -/

/-- The square root of a vector at an index is the extended reals' square root of the entry. -/
private theorem sqrt_apply {s : Shape} {φ : FTy} (v : FVec Ideal s φ) (i : s.Idx) : sqrt v i = Ideal.sqrt (v i) := rfl

private theorem lhs_dot_0 (i : S256x4096.Idx) (q : dot_S256x3_S4096x3_S256x4096_1_1_0_0_n_n.contr.Idx) : (dot_S256x3_S4096x3_S256x4096_1_1_0_0_n_n.lhsIdx i q 0).val = (i 0).val := by
  unfold DotDims.lhsIdx
  rw [dif_neg (show ¬(0 : Fin S256x3.rank) ∈ dot_S256x3_S4096x3_S256x4096_1_1_0_0_n_n.lhsBatch by decide),
    dif_pos (show (0 : Fin S256x3.rank) ∈ dot_S256x3_S4096x3_S256x4096_1_1_0_0_n_n.lhsNonContracting by decide)]
  rfl
private theorem lhs_dot_1 (i : S256x4096.Idx) (q : dot_S256x3_S4096x3_S256x4096_1_1_0_0_n_n.contr.Idx) : (dot_S256x3_S4096x3_S256x4096_1_1_0_0_n_n.lhsIdx i q 1).val = (q ⟨0, by decide⟩).val :=
  dot_S256x3_S4096x3_S256x4096_1_1_0_0_n_n.lhsIdx_val_of_single rfl i q
private theorem rhs_dot_0 (i : S256x4096.Idx) (q : dot_S256x3_S4096x3_S256x4096_1_1_0_0_n_n.contr.Idx) : (dot_S256x3_S4096x3_S256x4096_1_1_0_0_n_n.rhsIdx i q 0).val = (i 1).val := by
  unfold DotDims.rhsIdx
  rw [dif_neg (show ¬(0 : Fin S4096x3.rank) ∈ dot_S256x3_S4096x3_S256x4096_1_1_0_0_n_n.rhsBatch by decide),
    dif_pos (show (0 : Fin S4096x3.rank) ∈ dot_S256x3_S4096x3_S256x4096_1_1_0_0_n_n.rhsNonContracting by decide)]
  rfl
private theorem rhs_dot_1 (i : S256x4096.Idx) (q : dot_S256x3_S4096x3_S256x4096_1_1_0_0_n_n.contr.Idx) : (dot_S256x3_S4096x3_S256x4096_1_1_0_0_n_n.rhsIdx i q 1).val = (q ⟨0, by decide⟩).val :=
  dot_S256x3_S4096x3_S256x4096_1_1_0_0_n_n.rhsIdx_val_of_single rfl i q

/-- The matrix product into the zero accumulator contracts the two operands' coordinate axes: at `(r, j)` it is the
    inner product of row `r` of the first operand and row `j` of the second. -/
private theorem matmul_rows_apply (A : FVec Ideal S256x3 .f32) (B : FVec Ideal S4096x3 .f32) (r : Fin 256) (j : Fin 4096) :
    matmul (F := Ideal) dot_S256x3_S4096x3_S256x4096_1_1_0_0_n_n none A B (constant (F := Ideal) S256x4096 .f32 0x00000000#32) (ix2 r j)
      = ∑ k : Fin 3, A (ix2 r k) * B (ix2 j k) := by
  simp only [matmul]
  rw [Ideal.matmul_constant_zero_apply, ← Equiv.sum_comp (ValueIdx.contrEquiv1 dot_S256x3_S4096x3_S256x4096_1_1_0_0_n_n 3 rfl rfl).symm]
  refine Finset.sum_congr rfl fun k _ => ?_
  have hk := ValueIdx.contrEquiv1_symm_val dot_S256x3_S4096x3_S256x4096_1_1_0_0_n_n 3 rfl rfl k
  have el : dot_S256x3_S4096x3_S256x4096_1_1_0_0_n_n.lhsIdx (ix2 r j) ((ValueIdx.contrEquiv1 dot_S256x3_S4096x3_S256x4096_1_1_0_0_n_n 3 rfl rfl).symm k) = ix2 r k :=
    funext fun a => Fin.ext (by
      match a with
      | ⟨0, _⟩ => exact lhs_dot_0 _ _
      | ⟨1, _⟩ => exact (lhs_dot_1 _ _).trans hk)
  have er : dot_S256x3_S4096x3_S256x4096_1_1_0_0_n_n.rhsIdx (ix2 r j) ((ValueIdx.contrEquiv1 dot_S256x3_S4096x3_S256x4096_1_1_0_0_n_n 3 rfl rfl).symm k) = ix2 j k :=
    funext fun a => Fin.ext (by
      match a with
      | ⟨0, _⟩ => exact rhs_dot_0 _ _
      | ⟨1, _⟩ => exact (rhs_dot_1 _ _).trans hk)
  rw [el, er]

/-- The running minima start at the word for +∞. -/
theorem pay3_apply (j : Fin 4096) : k0_pay3 (F := Ideal) (ix2 (0 : Fin 1) j) = wInf :=
  congrFun (shapeCast_self (broadcast S1x4096 (Ideal.ofBits .f32 0x7F800000#32)) shapeCasts_S1x4096_S1x4096)
    (ix2 (0 : Fin 1) j)

/-- The running sum starts at the zero word. -/
theorem pay4_apply : k0_pay4 (F := Ideal) (ix2 (0 : Fin 1) (0 : Fin 1)) = wZero :=
  congrFun (shapeCast_self (broadcast S1x1 (Ideal.ofBits .f32 0x00000000#32)) shapeCasts_S1x1_S1x1)
    (ix2 (0 : Fin 1) (0 : Fin 1))

/-- The tile of distances. -/
theorem pay5_apply (x0 : Vec Ideal S1x256x3 .f32) (x1 : Vec Ideal S1x4096x3 .f32) (r : Fin 256) (j : Fin 4096) :
    k0_pay5 (F := Ideal) x0 x1 (ix2 r j) = tileDist x0 x1 r j := by
  unfold k0_pay5 tileDist
  simp only [sqrt_apply, maximumf_apply, addf_apply, subf_apply, mulf_apply, broadcast_apply]
  rw [broadcastTo_a1_ab_apply, shapeCast_a_a1_apply, sumLanes_apply, matmul_rows_apply,
    broadcastTo_1b_ab_apply, transpose_ix2_apply, shapeCast_a_a1_apply, sumLanes_apply]
  simp only [mulf_apply, shapeCast_1ab_ab_apply]
  rfl

/-- The running minimum at target point j: the old one against the tile's column minimum. -/
theorem pay6_apply (x0 : Vec Ideal S1x256x3 .f32) (x1 : Vec Ideal S1x4096x3 .f32) (acc : Vec Ideal S1x4096 .f32)
    (j : Fin 4096) :
    k0_pay6 (F := Ideal) x0 x1 acc (ix2 (0 : Fin 1) j)
      = min (acc (ix2 (0 : Fin 1) j)) ((Finset.univ : Finset (Fin 256)).fold min wInf fun r => tileDist x0 x1 r j) := by
  unfold k0_pay6
  simp only [shapeCast_self, minimumf_apply]
  rw [shapeCast_a_1a_apply, minRows_apply]
  simp only [pay5_apply]

/-- The tile's sum of row minima. -/
theorem pay7_apply (x0 : Vec Ideal S1x256x3 .f32) (x1 : Vec Ideal S1x4096x3 .f32) :
    k0_pay7 (F := Ideal) x0 x1 (ix2 (0 : Fin 1) (0 : Fin 1))
      = ∑ r : Fin 256, (Finset.univ : Finset (Fin 4096)).fold min wInf fun j => tileDist x0 x1 r j := by
  unfold k0_pay7
  simp only [shapeCast_a_1a_apply]
  rw [sumRows_apply]
  refine Finset.sum_congr rfl fun r _ => ?_
  rw [shapeCast_a_a1_apply, minLanes_apply]
  exact Finset.fold_congr fun j _ => pay5_apply x0 x1 r j

/-- The running sum: the old one plus the tile's. -/
theorem pay1_apply (v34 : FVec Ideal S1x1 .f32) (v35 : Vec Ideal S1x1 .f32) :
    k0_pay1 (F := Ideal) v34 v35 (ix2 (0 : Fin 1) (0 : Fin 1))
      = v35 (ix2 (0 : Fin 1) (0 : Fin 1)) + v34 (ix2 (0 : Fin 1) (0 : Fin 1)) := by
  unfold k0_pay1
  simp only [shapeCast_self]
  rfl

/-- An entry taken out of a one-entry vector at position (0, 0) is its entry there. -/
private theorem extractAt_00 {α : Type} (x : S1x1.Idx → α) (h : ∀ a, (![0, 0] : Fin 2 → Nat) a < S1x1.size a) :
    extractAt ![0, 0] x h = x (ix2 (0 : Fin 1) (0 : Fin 1)) := by
  unfold extractAt
  exact congrArg x (funext fun a => Fin.ext (by
    match a with
    | ⟨0, _⟩ => rfl
    | ⟨1, _⟩ => rfl))

/-- The last step: every entry of the output block is the two totals' sum over the number of points. -/
theorem pay2_apply (v43 : Vec Ideal S1x4096 .f32) (v46 : Vec Ideal S1x1 .f32) (a : Fin 8) (l : Fin 128) :
    k0_pay2 (F := Ideal) v43 v46 (ix3 (0 : Fin 1) a l)
      = Ideal.div ((∑ j : Fin 4096, v43 (ix2 (0 : Fin 1) j)) + v46 (ix2 (0 : Fin 1) (0 : Fin 1))) wN := by
  unfold k0_pay2
  simp only [shapeCast_ab_1ab_apply, broadcast_apply, extractAt_00, divf_apply, addf_apply, shapeCast_a_1a_apply]
  rw [sumLanes_apply]
  rfl

end Cert.KernelIdeal.Pay

end
-- ==== Proof.TileAlgebra.lean ====
/-
  One grid step of the kernel as arithmetic on the clouds. At tile n of cloud b the prediction block holds the
  points 256 n, ..., 256 n + 255 of the prediction cloud and the target block the whole target cloud, so the
  tile of distances is the distance matrix's rows 256 n ... 256 n + 255; the running minima after the step are the
  column minima over the prediction points below 256 (n + 1), the running sum the zero word plus the nearest-target
  distances of those points. After the sixteenth tile these are all 4096 points, and the block the kernel then
  stores is the cloud pair's loss.
-/
import proofs.«124083_j42932493091334_2_alg».proof.Proof.KernelPayloads
import proofs.«124083_j42932493091334_2_alg».proof.Proof.ChamferSpec

noncomputable section

namespace Cert.KernelIdeal.Tile

open Cert.KernelIdeal Cert.KernelIdeal.Gen Idealize.ShloMosaic Idealize.ShloMosaic.TcCoe
open Idealize.ShloMosaic.ValueIdx Chamfer

variable (P T : Cloud) (b : Fin 16) (n : ℕ) (hn : n < 16)
variable (x0 : Vec Ideal S1x256x3 .f32) (x1 : Vec Ideal S1x4096x3 .f32)
variable (hx0 : ∀ (r : Fin 256) (k : Fin 3), x0 (ix3 (0 : Fin 1) r k) = P b (tilePt n hn r) k)
variable (hx1 : ∀ (j : Fin 4096) (k : Fin 3), x1 (ix3 (0 : Fin 1) j k) = T b j k)

include hx0 hx1

/-- The tile of distances is rows 256 n ... 256 n + 255 of the cloud pair's distance matrix. -/
theorem tileDist_eq (r : Fin 256) (j : Fin 4096) :
    Pay.tileDist x0 x1 r j = Chamfer.dist P T b (tilePt n hn r) j := by
  unfold Pay.tileDist Chamfer.dist Chamfer.sqNorm Chamfer.inner
  simp only [hx0, hx1]

/-- The running minima after tile n, from those before it. -/
theorem minima_step (acc : Vec Ideal S1x4096 .f32) (j : Fin 4096)
    (hacc : acc (ix2 (0 : Fin 1) j) = minUpTo (fun i => Chamfer.dist P T b i j) (256 * n)) :
    k0_pay6 (F := Ideal) x0 x1 acc (ix2 (0 : Fin 1) j) = minUpTo (fun i => Chamfer.dist P T b i j) (256 * (n + 1)) := by
  rw [Pay.pay6_apply, hacc, minUpTo_tile _ n hn]
  refine congrArg (min _) (Finset.fold_congr fun r _ => ?_)
  exact tileDist_eq P T b n hn x0 x1 hx0 hx1 r j

/-- The running sum after tile n, from the one before it. -/
theorem total_step (acc : Vec Ideal S1x1 .f32)
    (hacc : acc (ix2 (0 : Fin 1) (0 : Fin 1)) = wZero + sumUpTo (fun i => nearTgt P T b i) (256 * n)) :
    k0_pay1 (F := Ideal) (k0_pay7 (F := Ideal) x0 x1) acc (ix2 (0 : Fin 1) (0 : Fin 1))
      = wZero + sumUpTo (fun i => nearTgt P T b i) (256 * (n + 1)) := by
  rw [Pay.pay1_apply, hacc, Pay.pay7_apply, sumUpTo_tile _ n hn, add_assoc]
  refine congrArg (wZero + ·) (congrArg (sumUpTo _ _ + ·) (Finset.sum_congr rfl fun r _ => ?_))
  unfold nearTgt
  exact Finset.fold_congr fun j _ => tileDist_eq P T b n hn x0 x1 hx0 hx1 r j

omit hx0 hx1

/-- Before a cloud's first tile the freshly reset minima are the minima over no point. -/
theorem minima_reset (j : Fin 4096) :
    k0_pay3 (F := Ideal) (ix2 (0 : Fin 1) j) = minUpTo (fun i => Chamfer.dist P T b i j) (256 * 0) := by
  rw [Pay.pay3_apply]
  exact (minUpTo_zero _).symm

/-- Before a cloud's first tile the freshly reset sum is the zero word plus the sum over no point. -/
theorem total_reset :
    k0_pay4 (F := Ideal) (ix2 (0 : Fin 1) (0 : Fin 1)) = wZero + sumUpTo (fun i => nearTgt P T b i) (256 * 0) := by
  rw [Pay.pay4_apply]
  show wZero = wZero + sumUpTo _ 0
  rw [sumUpTo_zero, add_zero]

/-- After the sixteenth tile: every entry of the stored block is the cloud pair's loss. -/
theorem block_value (acc0 : Vec Ideal S1x4096 .f32) (acc1 : Vec Ideal S1x1 .f32)
    (h0 : ∀ j : Fin 4096, acc0 (ix2 (0 : Fin 1) j) = minUpTo (fun i => Chamfer.dist P T b i j) 4096)
    (h1 : acc1 (ix2 (0 : Fin 1) (0 : Fin 1)) = wZero + sumUpTo (fun i => nearTgt P T b i) 4096)
    (a : Fin 8) (l : Fin 128) :
    k0_pay2 (F := Ideal) acc0 acc1 (ix3 (0 : Fin 1) a l) = cloudLoss P T b := by
  rw [Pay.pay2_apply, h1, sumUpTo_all]
  unfold cloudLoss
  have e : (∑ j : Fin 4096, acc0 (ix2 (0 : Fin 1) j)) = ∑ j : Fin 4096, nearPred P T b j :=
    Finset.sum_congr rfl fun j _ => by rw [h0 j, minUpTo_all]; rfl
  rw [e, show wZero = (0 : EReal) from Ideal.ofBits_zero_f32, zero_add]

end Cert.KernelIdeal.Tile

end
-- ==== Proof.KernelPieces.lean ====
/-
  What one run of the kernel body leaves behind, case by case, as values: the running minima (the old ones, or the
  word for +∞ at a cloud's first tile, against the tile's column minima), the running sum (the old one, or the zero
  word at a cloud's first tile, plus the tile's sum of row minima), and at a cloud's last tile the output block
  computed from the two just-updated accumulators.
-/
import proofs.«124083_j42932493091334_2_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem
open Idealize.ShloMosaic.Tactic

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-! ## A cloud's first tile: the accumulators are reset, then updated -/

theorem minima_first (c : Dev nD) (i : grid0.Coords) (a2 : Memref sig .tc .vmem S1x256x3 .f32) (h2 : a2.IsWhole) (a3 : Memref sig .tc .vmem S1x4096x3 .f32) (h3 : a3.IsWhole) (a4 : Memref sig .tc .vmem S1x8x128 .f32) (h4 : a4.IsWhole) (a5 : Memref sig .tc .vmem S1x4096 .f32) (h5 : a5.IsWhole) (a6 : Memref sig .tc .vmem S1x1 .f32) (h6 : a6.IsWhole) (hc0 : cond0_0 i) (hc1 : ¬cond0_1 i) (x0 : Vec F S1x256x3 .f32) (x1 : Vec F S1x4096x3 .f32) :
    sout0_A_0 c i a2 h2 a3 h3 a4 h4 a5 h5 a6 h6 hc0 hc1 x0 x1 = k0_pay6 x0 x1 (k0_pay3 (F := F)) := by
  unfold sout0_A_0
  rw [View.read_writes_eq_canon _ _ _ (scover0_A_0 c i a2 h2 a3 h3 a4 h4 a5 h5 a6 h6 hc0 hc1 x0 x1)]
  unfold kernelRun0_A
  dsimp only
  sl_unfold_words
  rw [View.canon_cons_unit_zero (S := S1x4096) hz2, View.readCov_unit_zero (S := S1x4096) _ hz2]
  simp only [View.readAt_eq_ld, h2.read_unread, h3.read_unread, h5.read_unread, h6.read_unread, View.ld_unit_zero (S := S1x256x3) hz3, View.ld_unit_zero (S := S1x4096x3) hz3, View.ld_unit_zero (S := S1x4096) hz2, View.ld_unit_zero (S := S1x1) hz2]

theorem total_first (c : Dev nD) (i : grid0.Coords) (a2 : Memref sig .tc .vmem S1x256x3 .f32) (h2 : a2.IsWhole) (a3 : Memref sig .tc .vmem S1x4096x3 .f32) (h3 : a3.IsWhole) (a4 : Memref sig .tc .vmem S1x8x128 .f32) (h4 : a4.IsWhole) (a5 : Memref sig .tc .vmem S1x4096 .f32) (h5 : a5.IsWhole) (a6 : Memref sig .tc .vmem S1x1 .f32) (h6 : a6.IsWhole) (hc0 : cond0_0 i) (hc1 : ¬cond0_1 i) (x0 : Vec F S1x256x3 .f32) (x1 : Vec F S1x4096x3 .f32) :
    sout0_A_1 c i a2 h2 a3 h3 a4 h4 a5 h5 a6 h6 hc0 hc1 x0 x1 = k0_pay1 (k0_pay7 x0 x1) (k0_pay4 (F := F)) := by
  unfold sout0_A_1
  rw [View.read_writes_eq_canon _ _ _ (scover0_A_1 c i a2 h2 a3 h3 a4 h4 a5 h5 a6 h6 hc0 hc1 x0 x1)]
  unfold kernelRun0_A
  dsimp only
  sl_unfold_words
  rw [View.canon_cons_unit_zero (S := S1x1) hz2, View.readCov_unit_zero (S := S1x1) _ hz2]
  simp only [View.readAt_eq_ld, h2.read_unread, h3.read_unread, h5.read_unread, h6.read_unread, View.ld_unit_zero (S := S1x256x3) hz3, View.ld_unit_zero (S := S1x4096x3) hz3, View.ld_unit_zero (S := S1x4096) hz2, View.ld_unit_zero (S := S1x1) hz2]

/-! ## A middle tile: the accumulators carried from the tile before are updated -/

theorem minima_next (c : Dev nD) (i : grid0.Coords) (a2 : Memref sig .tc .vmem S1x256x3 .f32) (h2 : a2.IsWhole) (a3 : Memref sig .tc .vmem S1x4096x3 .f32) (h3 : a3.IsWhole) (a4 : Memref sig .tc .vmem S1x8x128 .f32) (h4 : a4.IsWhole) (a5 : Memref sig .tc .vmem S1x4096 .f32) (h5 : a5.IsWhole) (a6 : Memref sig .tc .vmem S1x1 .f32) (h6 : a6.IsWhole) (hc0 : ¬cond0_0 i) (hc1 : ¬cond0_1 i) (x0 : Vec F S1x256x3 .f32) (x1 : Vec F S1x4096x3 .f32) (xs0 : Vec F S1x4096 .f32) (xs1 : Vec F S1x1 .f32) :
    sout0_B_0 c i a2 h2 a3 h3 a4 h4 a5 h5 a6 h6 hc0 hc1 x0 x1 xs0 xs1 = k0_pay6 x0 x1 xs0 := by
  unfold sout0_B_0
  rw [View.read_writes_eq_canon _ _ _ (scover0_B_0 c i a2 h2 a3 h3 a4 h4 a5 h5 a6 h6 hc0 hc1 x0 x1 xs0 xs1)]
  unfold kernelRun0_B
  dsimp only
  sl_unfold_words
  rw [View.canon_unit_zero (S := S1x4096) hz2]
  simp only [View.readAt_eq_ld, h2.read_unread, h3.read_unread, h5.read_unread, h6.read_unread, View.ld_unit_zero (S := S1x256x3) hz3, View.ld_unit_zero (S := S1x4096x3) hz3, View.ld_unit_zero (S := S1x4096) hz2, View.ld_unit_zero (S := S1x1) hz2]

theorem total_next (c : Dev nD) (i : grid0.Coords) (a2 : Memref sig .tc .vmem S1x256x3 .f32) (h2 : a2.IsWhole) (a3 : Memref sig .tc .vmem S1x4096x3 .f32) (h3 : a3.IsWhole) (a4 : Memref sig .tc .vmem S1x8x128 .f32) (h4 : a4.IsWhole) (a5 : Memref sig .tc .vmem S1x4096 .f32) (h5 : a5.IsWhole) (a6 : Memref sig .tc .vmem S1x1 .f32) (h6 : a6.IsWhole) (hc0 : ¬cond0_0 i) (hc1 : ¬cond0_1 i) (x0 : Vec F S1x256x3 .f32) (x1 : Vec F S1x4096x3 .f32) (xs0 : Vec F S1x4096 .f32) (xs1 : Vec F S1x1 .f32) :
    sout0_B_1 c i a2 h2 a3 h3 a4 h4 a5 h5 a6 h6 hc0 hc1 x0 x1 xs0 xs1 = k0_pay1 (k0_pay7 x0 x1) xs1 := by
  unfold sout0_B_1
  rw [View.read_writes_eq_canon _ _ _ (scover0_B_1 c i a2 h2 a3 h3 a4 h4 a5 h5 a6 h6 hc0 hc1 x0 x1 xs0 xs1)]
  unfold kernelRun0_B
  dsimp only
  sl_unfold_words
  rw [View.canon_unit_zero (S := S1x1) hz2]
  simp only [View.readAt_eq_ld, h2.read_unread, h3.read_unread, h5.read_unread, h6.read_unread, View.ld_unit_zero (S := S1x256x3) hz3, View.ld_unit_zero (S := S1x4096x3) hz3, View.ld_unit_zero (S := S1x4096) hz2, View.ld_unit_zero (S := S1x1) hz2]

/-! ## A cloud's last tile: the same update, and the output block from the updated accumulators -/

theorem minima_last (c : Dev nD) (i : grid0.Coords) (a2 : Memref sig .tc .vmem S1x256x3 .f32) (h2 : a2.IsWhole) (a3 : Memref sig .tc .vmem S1x4096x3 .f32) (h3 : a3.IsWhole) (a4 : Memref sig .tc .vmem S1x8x128 .f32) (h4 : a4.IsWhole) (a5 : Memref sig .tc .vmem S1x4096 .f32) (h5 : a5.IsWhole) (a6 : Memref sig .tc .vmem S1x1 .f32) (h6 : a6.IsWhole) (hc0 : ¬cond0_0 i) (hc1 : cond0_1 i) (x0 : Vec F S1x256x3 .f32) (x1 : Vec F S1x4096x3 .f32) (xs0 : Vec F S1x4096 .f32) (xs1 : Vec F S1x1 .f32) :
    sout0_C_0 c i a2 h2 a3 h3 a4 h4 a5 h5 a6 h6 hc0 hc1 x0 x1 xs0 xs1 = k0_pay6 x0 x1 xs0 := by
  unfold sout0_C_0
  rw [View.read_writes_eq_canon _ _ _ (scover0_C_0 c i a2 h2 a3 h3 a4 h4 a5 h5 a6 h6 hc0 hc1 x0 x1 xs0 xs1)]
  unfold kernelRun0_C
  dsimp only
  sl_unfold_words
  rw [View.canon_unit_zero (S := S1x4096) hz2]
  simp only [View.readAt_eq_ld, h2.read_unread, h3.read_unread, h5.read_unread, h6.read_unread, View.ld_unit_zero (S := S1x256x3) hz3, View.ld_unit_zero (S := S1x4096x3) hz3, View.ld_unit_zero (S := S1x4096) hz2, View.ld_unit_zero (S := S1x1) hz2]

theorem total_last (c : Dev nD) (i : grid0.Coords) (a2 : Memref sig .tc .vmem S1x256x3 .f32) (h2 : a2.IsWhole) (a3 : Memref sig .tc .vmem S1x4096x3 .f32) (h3 : a3.IsWhole) (a4 : Memref sig .tc .vmem S1x8x128 .f32) (h4 : a4.IsWhole) (a5 : Memref sig .tc .vmem S1x4096 .f32) (h5 : a5.IsWhole) (a6 : Memref sig .tc .vmem S1x1 .f32) (h6 : a6.IsWhole) (hc0 : ¬cond0_0 i) (hc1 : cond0_1 i) (x0 : Vec F S1x256x3 .f32) (x1 : Vec F S1x4096x3 .f32) (xs0 : Vec F S1x4096 .f32) (xs1 : Vec F S1x1 .f32) :
    sout0_C_1 c i a2 h2 a3 h3 a4 h4 a5 h5 a6 h6 hc0 hc1 x0 x1 xs0 xs1 = k0_pay1 (k0_pay7 x0 x1) xs1 := by
  unfold sout0_C_1
  rw [View.read_writes_eq_canon _ _ _ (scover0_C_1 c i a2 h2 a3 h3 a4 h4 a5 h5 a6 h6 hc0 hc1 x0 x1 xs0 xs1)]
  unfold kernelRun0_C
  dsimp only
  sl_unfold_words
  rw [View.canon_unit_zero (S := S1x1) hz2]
  simp only [View.readAt_eq_ld, h2.read_unread, h3.read_unread, h5.read_unread, h6.read_unread, View.ld_unit_zero (S := S1x256x3) hz3, View.ld_unit_zero (S := S1x4096x3) hz3, View.ld_unit_zero (S := S1x4096) hz2, View.ld_unit_zero (S := S1x1) hz2]

theorem block_last (c : Dev nD) (i : grid0.Coords) (a2 : Memref sig .tc .vmem S1x256x3 .f32) (h2 : a2.IsWhole) (a3 : Memref sig .tc .vmem S1x4096x3 .f32) (h3 : a3.IsWhole) (a4 : Memref sig .tc .vmem S1x8x128 .f32) (h4 : a4.IsWhole) (a5 : Memref sig .tc .vmem S1x4096 .f32) (h5 : a5.IsWhole) (a6 : Memref sig .tc .vmem S1x1 .f32) (h6 : a6.IsWhole) (hc0 : ¬cond0_0 i) (hc1 : cond0_1 i) (x0 : Vec F S1x256x3 .f32) (x1 : Vec F S1x4096x3 .f32) (xs0 : Vec F S1x4096 .f32) (xs1 : Vec F S1x1 .f32) :
    out0_C_2 c i a2 h2 a3 h3 a4 h4 a5 h5 a6 h6 hc0 hc1 x0 x1 xs0 xs1 = k0_pay2 (k0_pay6 x0 x1 xs0) (k0_pay1 (k0_pay7 x0 x1) xs1) := by
  unfold out0_C_2
  rw [View.read_writes_eq_canon _ _ _ (cover0_C_2 c i a2 h2 a3 h3 a4 h4 a5 h5 a6 h6 hc0 hc1 x0 x1 xs0 xs1)]
  unfold kernelRun0_C
  dsimp only
  sl_unfold_words
  rw [View.canon_unit_zero (S := S1x8x128) hz3, View.readCov_unit_zero (S := S1x4096) _ hz2,
    View.readCov_unit_zero (S := S1x1) _ hz2]
  simp only [View.readAt_eq_ld, h2.read_unread, h3.read_unread, h5.read_unread, h6.read_unread, View.ld_unit_zero (S := S1x256x3) hz3, View.ld_unit_zero (S := S1x4096x3) hz3, View.ld_unit_zero (S := S1x4096) hz2, View.ld_unit_zero (S := S1x1) hz2]

end Cert.KernelIdeal.Pieces

end
-- ==== Proof.GridInvariant.lean ====
/-
  The kernel's accumulators along the grid. The grid walks the sixteen clouds, sixteen tiles each: position t is
  tile t mod 16 of cloud t div 16. The prediction window's block there is rows 256 (t mod 16) ... of that cloud,
  the target window's block the whole target cloud. By recursion on the position, after position t the running
  minima are the column minima of the cloud pair's distance matrix over the prediction points below
  256 (t mod 16 + 1) and the running sum is the zero word plus those points' nearest-target distances; at a
  cloud's last tile the stored block is the cloud pair's loss.
-/
import proofs.«124083_j42932493091334_2_alg».proof.Proof.TileAlgebra
import proofs.«124083_j42932493091334_2_alg».proof.Proof.KernelPieces
import Idealize.ShloMosaic.Lib.StableHlo.Run

noncomputable section

namespace Cert.KernelIdeal.Grid

open Cert.KernelIdeal Cert.KernelIdeal.Gen Idealize.ShloMosaic Idealize.ShloMosaic.TcCoe Idealize.SL.Sem
open Idealize.ShloMosaic.ValueIdx Chamfer

variable (m : (ℓ : Loc nD τ sig) → Buf (Elt Ideal) ℓ)

/-- The prediction and the target clouds of the argument arrays on core c. -/
abbrev predCloud (c : Dev nD) : Cloud :=
  cloudOf (m ((c : Thread nD τ).loc main_arg0)) shapeCasts_S2x8x4096x3_S16x4096x3
abbrev tgtCloud (c : Dev nD) : Cloud :=
  cloudOf (m ((c : Thread nD τ).loc main_arg1)) shapeCasts_S2x8x4096x3_S16x4096x3

/-! ## The windows' arrays and blocks -/

/-- The prediction window's array is the first argument with its two leading axes merged. -/
theorem V_pred (c : Dev nD) : (V m c main_v0 : S16x4096x3.Idx → EReal)
    = shapeCast S16x4096x3 (m ((c : Thread nD τ).loc main_arg0)) shapeCasts_S2x8x4096x3_S16x4096x3 := by
  show StableHlo.after hostOps0 (fun b => m (c, b)) (Proc.devRef .tc main_v0) = _
  after_results
  rfl

/-- The target window's array is the second argument with its two leading axes merged. -/
theorem V_tgt (c : Dev nD) : (V m c main_v1 : S16x4096x3.Idx → EReal)
    = shapeCast S16x4096x3 (m ((c : Thread nD τ).loc main_arg1)) shapeCasts_S2x8x4096x3_S16x4096x3 := by
  show StableHlo.after hostOps0 (fun b => m (c, b)) (Proc.devRef .tc main_v1) = _
  after_results
  rfl

/-- The printed index maps over the grid: position t is tile t mod 16 of cloud t div 16. -/
theorem idx_facts : ∀ t : Fin cfg0.N,
    win0_0.index t (0 : Fin 3) = t.val / 16 ∧ win0_0.index t (1 : Fin 3) = t.val % 16 ∧ win0_0.index t (2 : Fin 3) = 0
    ∧ win0_1.index t (0 : Fin 3) = t.val / 16 ∧ win0_1.index t (1 : Fin 3) = 0 ∧ win0_1.index t (2 : Fin 3) = 0
    ∧ win0_2.index t (0 : Fin 3) = t.val / 16 ∧ win0_2.index t (1 : Fin 3) = 0 ∧ win0_2.index t (2 : Fin 3) = 0 :=
  (by decide +kernel : ∀ t : Fin grid0.N, _)

/-- The two input blocks at position t, at their literal shapes. -/
abbrev predBlk (c : Dev nD) (t : Fin cfg0.N) : Vec Ideal S1x256x3 .f32 := iblk m c 0 t
abbrev tgtBlk (c : Dev nD) (t : Fin cfg0.N) : Vec Ideal S1x4096x3 .f32 := iblk m c 1 t

/-- The prediction block at position t: rows 256 n ... 256 n + 255 of cloud b. -/
theorem predBlock (c : Dev nD) (t : Fin cfg0.N) (b : Fin 16) (hb : b.val = t.val / 16) (n : ℕ) (hn : n < 16)
    (hnt : t.val % 16 = n) (r : Fin 256) (k : Fin 3) :
    predBlk m c t (ix3 (0 : Fin 1) r k) = predCloud m c b (tilePt n hn r) k := by
  obtain ⟨e0, e1, e2, -⟩ := idx_facts t
  unfold predBlk iblk
  rw [View.read_apply]
  show V m c main_v0 _ = _
  rw [V_pred]
  show _ = shapeCast S16x4096x3 (m ((c : Thread nD τ).loc main_arg0)) shapeCasts_S2x8x4096x3_S16x4096x3
    (ix3 b (tilePt n hn r) k)
  refine congrArg (shapeCast S16x4096x3 (m ((c : Thread nD τ).loc main_arg0)) shapeCasts_S2x8x4096x3_S16x4096x3)
    (funext fun a => Fin.ext ?_)
  match a with
  | ⟨0, _⟩ => show win0_0.index t (0 : Fin 3) * 1 + 1 * 0 = b.val; omega
  | ⟨1, _⟩ => show win0_0.index t (1 : Fin 3) * 256 + 1 * r.val = 256 * n + r.val; omega
  | ⟨2, _⟩ => show win0_0.index t (2 : Fin 3) * 3 + 1 * k.val = k.val; omega

/-- The target block at position t: the whole target cloud b. -/
theorem tgtBlock (c : Dev nD) (t : Fin cfg0.N) (b : Fin 16) (hb : b.val = t.val / 16) (j : Fin 4096) (k : Fin 3) :
    tgtBlk m c t (ix3 (0 : Fin 1) j k) = tgtCloud m c b j k := by
  obtain ⟨-, -, -, e0, e1, e2, -⟩ := idx_facts t
  unfold tgtBlk iblk
  rw [View.read_apply]
  show V m c main_v1 _ = _
  rw [V_tgt]
  show _ = shapeCast S16x4096x3 (m ((c : Thread nD τ).loc main_arg1)) shapeCasts_S2x8x4096x3_S16x4096x3 (ix3 b j k)
  refine congrArg (shapeCast S16x4096x3 (m ((c : Thread nD τ).loc main_arg1)) shapeCasts_S2x8x4096x3_S16x4096x3)
    (funext fun a => Fin.ext ?_)
  match a with
  | ⟨0, _⟩ => show win0_1.index t (0 : Fin 3) * 1 + 1 * 0 = b.val; omega
  | ⟨1, _⟩ => show win0_1.index t (1 : Fin 3) * 4096 + 1 * j.val = j.val; omega
  | ⟨2, _⟩ => show win0_1.index t (2 : Fin 3) * 3 + 1 * k.val = k.val; omega

/-! ## What each position leaves, through the body's pure terms -/

/-- A cloud's first tile resets the accumulators and updates them. -/
theorem first_tile (c : Dev nD) (t : Fin cfg0.N) (h0 : t.val % 16 = 0) (h1 : ¬t.val % 16 = 15) :
    (outsAt0 m c t.val t.isLt).2.1 = k0_pay6 (F := Ideal) (predBlk m c t) (tgtBlk m c t) (k0_pay3 (F := Ideal))
    ∧ (outsAt0 m c t.val t.isLt).2.2 = k0_pay1 (F := Ideal) (k0_pay7 (F := Ideal) (predBlk m c t) (tgtBlk m c t)) (k0_pay4 (F := Ideal)) := by
  have e1 := congrArg (fun p => p.2.1) (outsAt0_A m c t h0 h1)
  have e2 := congrArg (fun p => p.2.2) (outsAt0_A m c t h0 h1)
  dsimp only at e1 e2
  exact ⟨e1.trans (Pieces.minima_first (F := Ideal) c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (predBlk m c t) (tgtBlk m c t)),
    e2.trans (Pieces.total_first (F := Ideal) c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (predBlk m c t) (tgtBlk m c t))⟩

/-- A middle tile updates the accumulators the tile before left. -/
theorem middle_tile (c : Dev nD) (t : Fin cfg0.N) (h0 : ¬t.val % 16 = 0) (h1 : ¬t.val % 16 = 15) :
    (outsAt0 m c t.val t.isLt).2.1 = k0_pay6 (F := Ideal) (predBlk m c t) (tgtBlk m c t) (outsAt0 m c (t.val - 1) (Nat.lt_of_le_of_lt (Nat.sub_le _ _) t.isLt)).2.1
    ∧ (outsAt0 m c t.val t.isLt).2.2 = k0_pay1 (F := Ideal) (k0_pay7 (F := Ideal) (predBlk m c t) (tgtBlk m c t)) (outsAt0 m c (t.val - 1) (Nat.lt_of_le_of_lt (Nat.sub_le _ _) t.isLt)).2.2 := by
  have e1 := congrArg (fun p => p.2.1) (outsAt0_B m c t h0 h1)
  have e2 := congrArg (fun p => p.2.2) (outsAt0_B m c t h0 h1)
  dsimp only at e1 e2
  exact ⟨e1.trans (Pieces.minima_next (F := Ideal) c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (predBlk m c t) (tgtBlk m c t) (outsAt0 m c (t.val - 1) (Nat.lt_of_le_of_lt (Nat.sub_le _ _) t.isLt)).2.1 (outsAt0 m c (t.val - 1) (Nat.lt_of_le_of_lt (Nat.sub_le _ _) t.isLt)).2.2),
    e2.trans (Pieces.total_next (F := Ideal) c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (predBlk m c t) (tgtBlk m c t) (outsAt0 m c (t.val - 1) (Nat.lt_of_le_of_lt (Nat.sub_le _ _) t.isLt)).2.1 (outsAt0 m c (t.val - 1) (Nat.lt_of_le_of_lt (Nat.sub_le _ _) t.isLt)).2.2)⟩

/-- A cloud's last tile updates them too, and stores the block computed from the updated ones. -/
theorem last_tile (c : Dev nD) (t : Fin cfg0.N) (h0 : ¬t.val % 16 = 0) (h1 : t.val % 16 = 15) :
    (outsAt0 m c t.val t.isLt).2.1 = k0_pay6 (F := Ideal) (predBlk m c t) (tgtBlk m c t) (outsAt0 m c (t.val - 1) (Nat.lt_of_le_of_lt (Nat.sub_le _ _) t.isLt)).2.1
    ∧ (outsAt0 m c t.val t.isLt).2.2 = k0_pay1 (F := Ideal) (k0_pay7 (F := Ideal) (predBlk m c t) (tgtBlk m c t)) (outsAt0 m c (t.val - 1) (Nat.lt_of_le_of_lt (Nat.sub_le _ _) t.isLt)).2.2
    ∧ (outsAt0 m c t.val t.isLt).1 = k0_pay2 (F := Ideal) (k0_pay6 (F := Ideal) (predBlk m c t) (tgtBlk m c t) (outsAt0 m c (t.val - 1) (Nat.lt_of_le_of_lt (Nat.sub_le _ _) t.isLt)).2.1)
        (k0_pay1 (F := Ideal) (k0_pay7 (F := Ideal) (predBlk m c t) (tgtBlk m c t)) (outsAt0 m c (t.val - 1) (Nat.lt_of_le_of_lt (Nat.sub_le _ _) t.isLt)).2.2) := by
  have e1 := congrArg (fun p => p.2.1) (outsAt0_C m c t h0 h1)
  have e2 := congrArg (fun p => p.2.2) (outsAt0_C m c t h0 h1)
  have e3 := congrArg (fun p => p.1) (outsAt0_C m c t h0 h1)
  dsimp only at e1 e2 e3
  exact ⟨e1.trans (Pieces.minima_last (F := Ideal) c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (predBlk m c t) (tgtBlk m c t) (outsAt0 m c (t.val - 1) (Nat.lt_of_le_of_lt (Nat.sub_le _ _) t.isLt)).2.1 (outsAt0 m c (t.val - 1) (Nat.lt_of_le_of_lt (Nat.sub_le _ _) t.isLt)).2.2),
    e2.trans (Pieces.total_last (F := Ideal) c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (predBlk m c t) (tgtBlk m c t) (outsAt0 m c (t.val - 1) (Nat.lt_of_le_of_lt (Nat.sub_le _ _) t.isLt)).2.1 (outsAt0 m c (t.val - 1) (Nat.lt_of_le_of_lt (Nat.sub_le _ _) t.isLt)).2.2),
    e3.trans (Pieces.block_last (F := Ideal) c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (predBlk m c t) (tgtBlk m c t) (outsAt0 m c (t.val - 1) (Nat.lt_of_le_of_lt (Nat.sub_le _ _) t.isLt)).2.1 (outsAt0 m c (t.val - 1) (Nat.lt_of_le_of_lt (Nat.sub_le _ _) t.isLt)).2.2)⟩

/-! ## The accumulators after every position -/

/-- After position t, tile n of cloud b: the running minima are the column minima over the prediction points below
    256 (n + 1), the running sum the zero word plus the nearest-target distances of those points. -/
theorem accumulators (c : Dev nD) : ∀ (t : ℕ) (h : t < cfg0.N) (b : Fin 16) (hb : b.val = t / 16) (n : ℕ) (hn : n < 16)
    (hnt : t % 16 = n),
    (∀ j : Fin 4096, (outsAt0 m c t h).2.1 (ix2 (0 : Fin 1) j)
        = minUpTo (fun i => Chamfer.dist (predCloud m c) (tgtCloud m c) b i j) (256 * (n + 1)))
    ∧ (outsAt0 m c t h).2.2 (ix2 (0 : Fin 1) (0 : Fin 1))
        = wZero + sumUpTo (fun i => nearTgt (predCloud m c) (tgtCloud m c) b i) (256 * (n + 1))
  | 0, h, b, hb, n, hn, hnt => by
    obtain rfl : n = 0 := by omega
    obtain ⟨e1, e2⟩ := first_tile m c ⟨0, h⟩ rfl (by show ¬(0 % 16 = 15); decide)
    refine ⟨fun j => ?_, ?_⟩
    · show (outsAt0 m c 0 h).2.1 (ix2 (0 : Fin 1) j) = _
      rw [show (outsAt0 m c 0 h).2.1 = _ from e1]
      exact Tile.minima_step (predCloud m c) (tgtCloud m c) b 0 hn (predBlk m c ⟨0, h⟩) (tgtBlk m c ⟨0, h⟩)
        (predBlock m c ⟨0, h⟩ b hb 0 hn rfl) (tgtBlock m c ⟨0, h⟩ b hb) (k0_pay3 (F := Ideal)) j
        (Tile.minima_reset (predCloud m c) (tgtCloud m c) b j)
    · rw [show (outsAt0 m c 0 h).2.2 = _ from e2]
      exact Tile.total_step (predCloud m c) (tgtCloud m c) b 0 hn (predBlk m c ⟨0, h⟩) (tgtBlk m c ⟨0, h⟩)
        (predBlock m c ⟨0, h⟩ b hb 0 hn rfl) (tgtBlock m c ⟨0, h⟩ b hb) (k0_pay4 (F := Ideal))
        (Tile.total_reset (predCloud m c) (tgtCloud m c) b)
  | s + 1, h, b, hb, n, hn, hnt => by
    have hN : cfg0.N = 256 := N_0
    by_cases h0 : (s + 1) % 16 = 0
    · obtain rfl : n = 0 := by omega
      obtain ⟨e1, e2⟩ := first_tile m c ⟨s + 1, h⟩ h0 (by show ¬(s + 1) % 16 = 15; omega)
      refine ⟨fun j => ?_, ?_⟩
      · rw [show (outsAt0 m c (s + 1) h).2.1 = _ from e1]
        exact Tile.minima_step (predCloud m c) (tgtCloud m c) b 0 hn (predBlk m c ⟨s + 1, h⟩) (tgtBlk m c ⟨s + 1, h⟩)
          (predBlock m c ⟨s + 1, h⟩ b hb 0 hn h0) (tgtBlock m c ⟨s + 1, h⟩ b hb) (k0_pay3 (F := Ideal)) j
          (Tile.minima_reset (predCloud m c) (tgtCloud m c) b j)
      · rw [show (outsAt0 m c (s + 1) h).2.2 = _ from e2]
        exact Tile.total_step (predCloud m c) (tgtCloud m c) b 0 hn (predBlk m c ⟨s + 1, h⟩) (tgtBlk m c ⟨s + 1, h⟩)
          (predBlock m c ⟨s + 1, h⟩ b hb 0 hn h0) (tgtBlock m c ⟨s + 1, h⟩ b hb) (k0_pay4 (F := Ideal))
          (Tile.total_reset (predCloud m c) (tgtCloud m c) b)
    · obtain ⟨n', rfl⟩ : ∃ n', n = n' + 1 := ⟨n - 1, by omega⟩
      have ih := accumulators c s (Nat.lt_of_succ_lt h) b (by omega) n' (by omega) (by omega)
      have hstep : (outsAt0 m c (s + 1) h).2.1
            = k0_pay6 (F := Ideal) (predBlk m c ⟨s + 1, h⟩) (tgtBlk m c ⟨s + 1, h⟩) (outsAt0 m c s (Nat.lt_of_succ_lt h)).2.1
          ∧ (outsAt0 m c (s + 1) h).2.2
            = k0_pay1 (F := Ideal) (k0_pay7 (F := Ideal) (predBlk m c ⟨s + 1, h⟩) (tgtBlk m c ⟨s + 1, h⟩)) (outsAt0 m c s (Nat.lt_of_succ_lt h)).2.2 := by
        by_cases h1 : (s + 1) % 16 = 15
        · exact ⟨(last_tile m c ⟨s + 1, h⟩ h0 h1).1, (last_tile m c ⟨s + 1, h⟩ h0 h1).2.1⟩
        · exact middle_tile m c ⟨s + 1, h⟩ h0 h1
      refine ⟨fun j => ?_, ?_⟩
      · rw [hstep.1]
        exact Tile.minima_step (predCloud m c) (tgtCloud m c) b (n' + 1) hn (predBlk m c ⟨s + 1, h⟩) (tgtBlk m c ⟨s + 1, h⟩)
          (predBlock m c ⟨s + 1, h⟩ b hb (n' + 1) hn hnt) (tgtBlock m c ⟨s + 1, h⟩ b hb)
          (outsAt0 m c s (Nat.lt_of_succ_lt h)).2.1 j (ih.1 j)
      · rw [hstep.2]
        exact Tile.total_step (predCloud m c) (tgtCloud m c) b (n' + 1) hn (predBlk m c ⟨s + 1, h⟩) (tgtBlk m c ⟨s + 1, h⟩)
          (predBlock m c ⟨s + 1, h⟩ b hb (n' + 1) hn hnt) (tgtBlock m c ⟨s + 1, h⟩ b hb)
          (outsAt0 m c s (Nat.lt_of_succ_lt h)).2.2 ih.2

/-- At a cloud's last tile every entry of the stored block is the cloud pair's loss. -/
theorem stored_block (c : Dev nD) (t : Fin cfg0.N) (h1 : t.val % 16 = 15) (b : Fin 16) (hb : b.val = t.val / 16)
    (a : Fin 8) (l : Fin 128) :
    (outsAt0 m c t.val t.isLt).1 (ix3 (0 : Fin 1) a l) = cloudLoss (predCloud m c) (tgtCloud m c) b := by
  have h0 : ¬t.val % 16 = 0 := by omega
  obtain ⟨e1, e2, e3⟩ := last_tile m c t h0 h1
  obtain ⟨a1, a2⟩ := accumulators m c t.val t.isLt b hb 15 (by decide) h1
  rw [e3, ← e1, ← e2]
  exact Tile.block_value (predCloud m c) (tgtCloud m c) b (outsAt0 m c t.val t.isLt).2.1 (outsAt0 m c t.val t.isLt).2.2
    a1 a2 a l

end Cert.KernelIdeal.Grid

end
-- ==== Proof.KernelValue.lean ====
/-
  The kernel's result. Only a cloud's last tile writes its [8, 128] block of the [16, 8, 128] output back, and every
  entry of that block is the cloud pair's loss; the sixteen blocks tile the output, so after the run entry (b, a, l)
  is the loss of cloud pair b. The host lines after the region take entry (b, 0, 0) of each block, add the sixteen
  from the zero word and divide by the word for 16: the Chamfer loss of the two argument arrays.
-/
import proofs.«124083_j42932493091334_2_alg».proof.Proof.GridInvariant

noncomputable section

namespace Cert.KernelIdeal.Result

open Cert.KernelIdeal Cert.KernelIdeal.Gen Idealize.ShloMosaic Idealize.ShloMosaic.TcCoe Idealize.SL.Sem
open Idealize.ShloMosaic.ValueIdx Chamfer Cert.KernelIdeal.Grid
open Idealize.ShloMosaic.Pipeline (Dat)

variable (m : (ℓ : Loc nD τ sig) → Buf (Elt Ideal) ℓ) (ρ : Dev nD → PrngReg)

/-- The output array after the run: entry (b, a, l) is the loss of cloud pair b. -/
def lossArray (c : Dev nD) : S16x8x128.Idx → EReal :=
  fun i => cloudLoss (predCloud m c) (tgtCloud m c) ⟨(i 0).val, (i 0).isLt⟩

/-- At a cloud's last tile every entry of the stored block, at any index, is the cloud pair's loss. -/
theorem stored_entry (c : Dev nD) (t : Fin cfg0.N) (h1 : t.val % 16 = 15) (b : Fin 16) (hb : b.val = t.val / 16)
    (z : S1x8x128.Idx) :
    (outsAt0 m c t.val t.isLt).1 z = cloudLoss (predCloud m c) (tgtCloud m c) b := by
  obtain ⟨u, a, l, rfl⟩ : ∃ (u : Fin 1) (a : Fin 8) (l : Fin 128), z = ix3 u a l := ⟨z 0, z 1, z 2, eq_ix3 z⟩
  obtain rfl : u = 0 := Subsingleton.elim _ _
  exact stored_block m c t h1 b hb a l

/-- What a flushing position writes back is its block of the loss array. -/
theorem flushed_eq (c : Dev nD) (t : Fin cfg0.N) (hf : (cfg0.win 2).flush t = true) :
    (dats m 0 c).flushed 2 t = ((cfg0.win 2).blk t).view.read (Elt Ideal) (lossArray m c) := by
  have hN : cfg0.N = 256 := N_0
  have h15 : t.val % 16 = 15 := (flush0_2 t).mp hf
  have htl : t.val < 256 := lt_of_lt_of_eq t.isLt hN
  obtain ⟨-, -, -, -, -, -, e0, e1, e2⟩ := idx_facts t
  show (cfg0.win 2).cut (grid0.coords t) ((dats m 0 c).after 2 t) = _
  rw [after0_2]
  funext y
  rw [View.read_apply]
  show (outsAt0 m c t.val t.isLt).1 ((cfg0.win 2).xinj (grid0.coords t) y) = lossArray m c (((cfg0.win 2).blk t).view.emb y)
  refine (stored_entry m c t h15 ⟨t.val / 16, by omega⟩ rfl _).trans ?_
  unfold lossArray
  refine congrArg (cloudLoss (predCloud m c) (tgtCloud m c)) (Fin.ext ?_)
  have hy0 : (y 0).val < 1 := (y 0).isLt
  show t.val / 16 = win0_2.index t (0 : Fin 3) * 1 + 1 * (y 0).val
  omega

/-- An index of the output is in position t's block iff each coordinate is in the block's range on its axis. -/
theorem mem_blk (t : Fin cfg0.N) (i : S16x8x128.Idx) :
    i ∈ ((cfg0.win 2).blk t).view.set ↔ ∀ a : Fin 3, win0_2.index t a * S1x8x128.size a ≤ (i a).val
      ∧ (i a).val < win0_2.index t a * S1x8x128.size a + S1x8x128.size a := by
  show i ∈ ((View.whole main_v2).slice (win0_2.rect t)).set ↔ _
  rw [View.set_slice_whole, Rect.mem_set_unit]
  exact Iff.rfl

/-- Every entry of the output lies in the block some cloud's last tile writes back. -/
theorem covered (i : S16x8x128.Idx) :
    ∃ t : Fin cfg0.N, (cfg0.win 2).flush t = true ∧ i ∈ ((cfg0.win 2).blk t).view.set := by
  have hN : cfg0.N = 256 := N_0
  have hi0 : (i 0).val < 16 := (i 0).isLt
  have hi1 : (i 1).val < 8 := (i 1).isLt
  have hi2 : (i 2).val < 128 := (i 2).isLt
  obtain ⟨t, ht⟩ : ∃ t : Fin cfg0.N, t.val = 16 * (i 0).val + 15 := ⟨⟨16 * (i 0).val + 15, by omega⟩, rfl⟩
  obtain ⟨-, -, -, -, -, -, e0, e1, e2⟩ := idx_facts t
  refine ⟨t, (flush0_2 t).mpr (by omega), ?_⟩
  rw [mem_blk]
  intro a
  match a with
  | ⟨0, _⟩ =>
    show win0_2.index t (0 : Fin 3) * 1 ≤ (i 0).val ∧ (i 0).val < win0_2.index t (0 : Fin 3) * 1 + 1
    omega
  | ⟨1, _⟩ =>
    show win0_2.index t (1 : Fin 3) * 8 ≤ (i 1).val ∧ (i 1).val < win0_2.index t (1 : Fin 3) * 8 + 8
    omega
  | ⟨2, _⟩ =>
    show win0_2.index t (2 : Fin 3) * 128 ≤ (i 2).val ∧ (i 2).val < win0_2.index t (2 : Fin 3) * 128 + 128
    omega

/-- So the output array ends holding the loss array. -/
theorem final_out (c : Dev nD) : (dats m 0 c).arrAt 2 cfg0.N = lossArray m c :=
  (dats m 0 c).arrAt_eq_of_cover 2 (lossArray m c) (flushed_eq m c) covered

/-! ## The host lines after the region -/

/-- The host lines after the region as one function of the output array: entry (b, 0, 0) of each block, the sixteen
    added from the zero word, the sum over the word for 16. -/
def tail (A : S16x8x128.Idx → EReal) : S_.Idx → EReal :=
  Host.divf (F := Ideal)
    (Host.reduceAdd (F := Ideal)
      (shapeCast S16 (extractStridedSlice S16x1x1 ![0, 0, 0] A slices_S16x8x128_S16x1x1_0_0_0) shapeCasts_S16x1x1_S16)
      (constant (F := Ideal) S_ .f32 0x00000000#32) reducesTo_S16_S_d0 h_S_)
    (constant (F := Ideal) S_ .f32 0x41800000#32)

/-- The host's sum of a sixteen-entry vector from the zero word. -/
theorem sum16 (y0 : FVec Ideal S16 .f32) (i : S_.Idx) :
    Host.reduceAdd (F := Ideal) y0 (constant (F := Ideal) S_ .f32 0x00000000#32) reducesTo_S16_S_d0 h_S_ i
      = wZero + ∑ j : S16.Idx, y0 j := by
  simp only [Host.reduceAdd, Ideal.hostReduceAdd_def]
  exact Ideal.hostReduceAdd_total reducesTo_S16_S_d0 (fun b => b.elim0) y0 _ i

/-- The tail, read: the mean of the blocks' corner entries. -/
theorem tail_apply (A : S16x8x128.Idx → EReal) (i : S_.Idx) :
    tail A i = Ideal.div (wZero + ∑ b : Fin 16, A (ix3 b (0 : Fin 8) (0 : Fin 128))) wB := by
  unfold tail
  show Ideal.div (Host.reduceAdd (F := Ideal) _ _ reducesTo_S16_S_d0 h_S_ i) wB = _
  rw [sum16, sum_idx1]
  refine congrArg (fun s => Ideal.div (wZero + s) wB) (Finset.sum_congr rfl fun b _ => ?_)
  refine (shapeCast_apply _ shapeCasts_S16x1x1_S16 (ix1 b) (ix3 b (0 : Fin 1) (0 : Fin 1)) ?_).trans ?_
  · rw [Shape.rowMajor_val_three, Shape.rowMajor_val_one]
    show (b.val * 1 + 0) * 1 + 0 = b.val
    omega
  · exact extractStridedSlice_apply _ A slices_S16x8x128_S16x1x1_0_0_0 (ix3 b (0 : Fin 1) (0 : Fin 1))
      (ix3 b (0 : Fin 8) (0 : Fin 128)) (fun a => by
        match a with
        | ⟨0, _⟩ => show b.val = 0 + b.val; omega
        | ⟨1, _⟩ => rfl
        | ⟨2, _⟩ => rfl)

/-- The program's result, as the frame run states it, is the Chamfer loss of the two arguments' clouds. -/
theorem result_eq (c : Dev nD) :
    Pipeline.afterTail₀ cfgs (dats m) 0 (V0 m) [hostOps1] c main_v6
      = fun _ => loss (predCloud m c) (tgtCloud m c) := by
  have e : Pipeline.afterTail₀ cfgs (dats m) 0 (V0 m) [hostOps1] c main_v6
      = tail (Pipeline.withArrays (cfgs 0).spec c (V0 m c) (fun w => (dats m 0 c).arrAt w (cfgs 0).N)
          (Proc.devRef .tc main_v2)) := by
    unfold Pipeline.afterTail₀
    show StableHlo.after hostOps1 _ (Proc.devRef .tc main_v6) = _
    after_results
    rfl
  rw [e]
  have ea : Pipeline.withArrays (cfgs 0).spec c (V0 m c) (fun w => (dats m 0 c).arrAt w (cfgs 0).N)
      (Proc.devRef .tc main_v2) = lossArray m c :=
    (Pipeline.withArrays_arr spec0 launch0.win.arr_inj c _ _ 2).trans (final_out m c)
  rw [ea]
  funext i
  rw [tail_apply]
  unfold loss lossArray
  rfl

/-! ## The run, read -/

/-- Every weakly fair execution of the idealized kernel's program ends with its result at the Chamfer loss of the
    arguments' clouds, the arguments unchanged. -/
theorem run : θ_run defs (onTc (τ := τ) (main (F := Ideal))) ⟨m, fun _ => 0, ρ⟩ fun r => ∀ c : Dev nD,
      r.2.mem ((c : Thread nD τ).loc main_v6) = (fun _ => loss (predCloud m c) (tgtCloud m c))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v6 (Pipeline.mem_restRefs_of main_v6 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Result

end
-- ==== Proof.RefLoss.lean ====
/-
  The reference computes the Chamfer loss of the argument arrays' clouds: its result term, read one operation at a
  time, is Chamfer.loss.
-/
import proofs.«124083_j42932493091334_2_alg».proof.Proof.Gen.ReferenceIdeal.Read
import proofs.«124083_j42932493091334_2_alg».proof.Proof.ChamferSpec

noncomputable section

namespace Cert.ReferenceIdeal.RefValue

open Cert.ReferenceIdeal Cert.ReferenceIdeal.Gen Idealize.ShloMosaic Idealize.ShloMosaic.TcCoe

open Idealize.ShloMosaic.ValueIdx

/-- The clouds of an argument array. -/
private abbrev cl (x : (⟨S2x8x4096x3, .f32⟩ : BufTy).Contents (Elt Ideal)) : Chamfer.Cloud :=
  Chamfer.cloudOf x shapeCasts_S2x8x4096x3_S16x4096x3

/-- The first reshape, at point i of cloud b, coordinate k. -/
private theorem v0_ix (x0 : (⟨S2x8x4096x3, .f32⟩ : BufTy).Contents (Elt Ideal)) (b : Fin 16) (i : Fin 4096) (k : Fin 3) :
    Read.val_main_v0 (F := Ideal) x0 (ix3 b i k) = cl x0 b i k := rfl

/-- The second reshape likewise. -/
private theorem v1_ix (x1 : (⟨S2x8x4096x3, .f32⟩ : BufTy).Contents (Elt Ideal)) (b : Fin 16) (i : Fin 4096) (k : Fin 3) :
    Read.val_main_v1 (F := Ideal) x1 (ix3 b i k) = cl x1 b i k := rfl

/-- The prediction points' squared norms: the zero word plus the sum of squares. -/
private theorem v3_ix (x0 : (⟨S2x8x4096x3, .f32⟩ : BufTy).Contents (Elt Ideal)) (b : Fin 16) (i : Fin 4096) :
    Read.val_main_v3 (F := Ideal) x0 (ix2 b i) = Chamfer.sqNorm (cl x0) b i := by
  refine (Read.val_main_v3_apply x0 (ix2 b i)).trans ?_
  rw [Read.val_main_cst_apply, Ideal.ofBits_def, Ideal.ofBits_zero_f32, zero_add]
  unfold Chamfer.sqNorm
  refine Finset.sum_congr rfl fun k _ => ?_
  have e : Read.idx_main_v3 (ix2 b i) k = ix3 b i k :=
    funext fun a => Fin.ext (by match a with | ⟨0, _⟩ => rfl | ⟨1, _⟩ => rfl | ⟨2, _⟩ => rfl)
  rw [e, Read.val_main_v2_apply, v0_ix, Ideal.mulf_def]

/-- The target points' squared norms. -/
private theorem v6_ix (x1 : (⟨S2x8x4096x3, .f32⟩ : BufTy).Contents (Elt Ideal)) (b : Fin 16) (j : Fin 4096) :
    Read.val_main_v6 (F := Ideal) x1 (ix2 b j) = Chamfer.sqNorm (cl x1) b j := by
  refine (Read.val_main_v6_apply x1 (ix2 b j)).trans ?_
  rw [Read.val_main_cst_0_apply, Ideal.ofBits_def, Ideal.ofBits_zero_f32, zero_add]
  unfold Chamfer.sqNorm
  refine Finset.sum_congr rfl fun k _ => ?_
  have e : Read.idx_main_v6 (ix2 b j) k = ix3 b j k :=
    funext fun a => Fin.ext (by match a with | ⟨0, _⟩ => rfl | ⟨1, _⟩ => rfl | ⟨2, _⟩ => rfl)
  rw [e, Read.val_main_v5_apply, v1_ix, Ideal.mulf_def]

/-- The contraction: the inner products of prediction point i and target point j. -/
private theorem v8_ix (x0 x1 : (⟨S2x8x4096x3, .f32⟩ : BufTy).Contents (Elt Ideal)) (b : Fin 16) (i j : Fin 4096) :
    Read.val_main_v8 (F := Ideal) x0 x1 (ix3 b i j) = Chamfer.inner (cl x0) (cl x1) b i j := by
  refine (Read.val_main_v8_apply x0 x1 (ix3 b i j)).trans ?_
  unfold Chamfer.inner
  refine Finset.sum_congr rfl fun k _ => ?_
  have el : Read.lidx_main_v8 (ix3 b i j) k = ix3 b i k :=
    funext fun a => Fin.ext (by match a with | ⟨0, _⟩ => rfl | ⟨1, _⟩ => rfl | ⟨2, _⟩ => rfl)
  have er : Read.ridx_main_v8 (ix3 b i j) k = ix3 b j k :=
    funext fun a => Fin.ext (by match a with | ⟨0, _⟩ => rfl | ⟨1, _⟩ => rfl | ⟨2, _⟩ => rfl)
  rw [el, er, v0_ix, v1_ix]

/-- The distance matrix at (b, i, j). -/
private theorem v18_ix (x0 x1 : (⟨S2x8x4096x3, .f32⟩ : BufTy).Contents (Elt Ideal)) (b : Fin 16) (i j : Fin 4096) :
    Read.val_main_v18 (F := Ideal) x0 x1 (ix3 b i j) = Chamfer.dist (cl x0) (cl x1) b i j := by
  have e11 : Read.idx_main_v4 (Read.idx_main_v11 (ix3 b i j)) = ix2 b i :=
    funext fun a => Fin.ext (by match a with | ⟨0, _⟩ => rfl | ⟨1, _⟩ => rfl)
  have e14 : Read.idx_main_v7 (Read.idx_main_v13 (Read.idx_main_v14 (ix3 b i j))) = ix2 b j :=
    funext fun a => Fin.ext (by match a with | ⟨0, _⟩ => rfl | ⟨1, _⟩ => rfl)
  rw [Read.val_main_v18_apply, Read.val_main_v17_apply, Read.val_main_v16_apply, Read.val_main_cst_2_apply,
    Read.val_main_v15_apply, Read.val_main_v12_apply, Read.val_main_v11_apply, Read.val_main_v4_apply, e11, v3_ix,
    Read.val_main_v10_apply, Read.val_main_v9_apply, Read.val_main_cst_1_apply, v8_ix,
    Read.val_main_v14_apply, Read.val_main_v13_apply, Read.val_main_v7_apply, e14, v6_ix]
  simp only [Ideal.mulf_def, Ideal.addf_def, Ideal.subf_def, Ideal.maximumf_def, Ideal.hostUnary_sqrt_def, Ideal.ofBits_def]
  rfl

/-- A fold of the ideal values' minimum is a fold of min. -/
private theorem fold_minimumf {ι : Type} (s : Finset ι) (c : EReal) (g : ι → EReal) :
    s.fold (FloatOps.minimumf (F := Ideal) (φ := .f32)) c g = s.fold min c g := rfl

/-- The index a reduction over axis 1 reads: the reduced index with the prediction point inserted. -/
private theorem lift_d1 (h : S16x4096x4096.Reduces [1] S16x4096) (b : Fin 16) (j i : Fin 4096) :
    h.lift (ix2 b j) i = ix3 b i j :=
  funext fun a => Fin.ext (by match a with | ⟨0, _⟩ => rfl | ⟨1, _⟩ => rfl | ⟨2, _⟩ => rfl)

/-- The index a reduction over axis 2 reads: the reduced index with the target point appended. -/
private theorem lift_d2 (h : S16x4096x4096.Reduces [2] S16x4096) (b : Fin 16) (i j : Fin 4096) :
    h.lift (ix2 b i) j = ix3 b i j :=
  funext fun a => Fin.ext (by match a with | ⟨0, _⟩ => rfl | ⟨1, _⟩ => rfl | ⟨2, _⟩ => rfl)

/-- A minimum-reduction over axis 1 of any array, at (b, j): the fold of min over the middle coordinate. -/
private theorem red_d1 (y : S16x4096x4096.Idx → EReal) (init : S_.Idx → EReal) (b : Fin 16) (j : Fin 4096) :
    Host.reduce (FloatOps.minimumf (F := Ideal) (φ := .f32)) y init reducesTo_S16x4096x4096_S16x4096_d1 h_S_ (ix2 b j)
      = (Finset.univ : Finset (Fin 4096)).fold min (init (Shape.Idx.first h_S_)) (fun i => y (ix3 b i j)) := by
  have h : S16x4096x4096.Reduces [1] S16x4096 := by decide
  refine (Host.reduce_eq_fold_single (α := EReal) (s := S16x4096x4096) (t := S16x4096) (a := 1) (u := S_)
    (FloatOps.minimumf (F := Ideal) (φ := .f32)) y init reducesTo_S16x4096x4096_S16x4096_d1 h h_S_ (ix2 b j)).trans ?_
  rw [fold_minimumf]
  refine Finset.fold_congr fun i _ => ?_
  exact congrArg y (lift_d1 h b j i)

/-- A minimum-reduction over axis 2 of any array, at (b, i): the fold of min over the last coordinate. -/
private theorem red_d2 (y : S16x4096x4096.Idx → EReal) (init : S_.Idx → EReal) (b : Fin 16) (i : Fin 4096) :
    Host.reduce (FloatOps.minimumf (F := Ideal) (φ := .f32)) y init reducesTo_S16x4096x4096_S16x4096_d2 h_S_ (ix2 b i)
      = (Finset.univ : Finset (Fin 4096)).fold min (init (Shape.Idx.first h_S_)) (fun j => y (ix3 b i j)) := by
  have h : S16x4096x4096.Reduces [2] S16x4096 := by decide
  refine (Host.reduce_eq_fold_single (α := EReal) (s := S16x4096x4096) (t := S16x4096) (a := 2) (u := S_)
    (FloatOps.minimumf (F := Ideal) (φ := .f32)) y init reducesTo_S16x4096x4096_S16x4096_d2 h h_S_ (ix2 b i)).trans ?_
  rw [fold_minimumf]
  refine Finset.fold_congr fun j _ => ?_
  exact congrArg y (lift_d2 h b i j)

/-- The minimum over the prediction points: each target point's nearest prediction point. -/
private theorem v19_ix (x0 x1 : (⟨S2x8x4096x3, .f32⟩ : BufTy).Contents (Elt Ideal)) (b : Fin 16) (j : Fin 4096) :
    Read.val_main_v19 (F := Ideal) x0 x1 (ix2 b j) = Chamfer.nearPred (cl x0) (cl x1) b j := by
  unfold Read.val_main_v19
  refine (red_d1 (Read.val_main_v18 (F := Ideal) x0 x1) (Read.val_main_cst_3 (F := Ideal)) b j).trans ?_
  rw [Read.val_main_cst_3_apply, Ideal.ofBits_def]
  unfold Chamfer.nearPred
  exact Finset.fold_congr fun i _ => v18_ix x0 x1 b i j

/-- The minimum over the target points: each prediction point's nearest target point. -/
private theorem v20_ix (x0 x1 : (⟨S2x8x4096x3, .f32⟩ : BufTy).Contents (Elt Ideal)) (b : Fin 16) (i : Fin 4096) :
    Read.val_main_v20 (F := Ideal) x0 x1 (ix2 b i) = Chamfer.nearTgt (cl x0) (cl x1) b i := by
  unfold Read.val_main_v20
  refine (red_d2 (Read.val_main_v18 (F := Ideal) x0 x1) (Read.val_main_cst_4 (F := Ideal)) b i).trans ?_
  rw [Read.val_main_cst_4_apply, Ideal.ofBits_def]
  unfold Chamfer.nearTgt
  exact Finset.fold_congr fun j _ => v18_ix x0 x1 b i j

/-- One cloud pair's loss: the two means of nearest distances, added. -/
private theorem v27_ix (x0 x1 : (⟨S2x8x4096x3, .f32⟩ : BufTy).Contents (Elt Ideal)) (b : Fin 16) :
    Read.val_main_v27 (F := Ideal) x0 x1 (ix1 b) = Chamfer.cloudLoss (cl x0) (cl x1) b := by
  have e21 : ∀ k : Fin 4096, Read.idx_main_v21 (ix1 b) k = ix2 b k := fun k =>
    funext fun a => Fin.ext (by match a with | ⟨0, _⟩ => rfl | ⟨1, _⟩ => rfl)
  have e24 : ∀ k : Fin 4096, Read.idx_main_v24 (ix1 b) k = ix2 b k := fun k =>
    funext fun a => Fin.ext (by match a with | ⟨0, _⟩ => rfl | ⟨1, _⟩ => rfl)
  have s21 : Read.val_main_v21 (F := Ideal) x0 x1 (ix1 b) = ∑ j : Fin 4096, Chamfer.nearPred (cl x0) (cl x1) b j := by
    refine (Read.val_main_v21_apply x0 x1 (ix1 b)).trans ?_
    rw [Read.val_main_cst_5_apply, Ideal.ofBits_def, Ideal.ofBits_zero_f32, zero_add]
    refine Finset.sum_congr rfl fun k _ => ?_
    rw [e21, v19_ix]
  have s24 : Read.val_main_v24 (F := Ideal) x0 x1 (ix1 b) = ∑ i : Fin 4096, Chamfer.nearTgt (cl x0) (cl x1) b i := by
    refine (Read.val_main_v24_apply x0 x1 (ix1 b)).trans ?_
    rw [Read.val_main_cst_7_apply, Ideal.ofBits_def, Ideal.ofBits_zero_f32, zero_add]
    refine Finset.sum_congr rfl fun k _ => ?_
    rw [e24, v20_ix]
  rw [Read.val_main_v27_apply, Read.val_main_v23_apply, Read.val_main_v26_apply, s21, s24,
    Read.val_main_v22_apply, Read.val_main_cst_6_apply, Read.val_main_v25_apply, Read.val_main_cst_8_apply]
  simp only [Ideal.addf_def, Ideal.hostDivf_def, Ideal.ofBits_def]
  exact Chamfer.div_add_div _ _

/-- The reference's result, at the extended reals, is the loss of the two arguments' clouds. -/
theorem ref_eq (x0 x1 : (⟨S2x8x4096x3, .f32⟩ : BufTy).Contents (Elt Ideal)) :
    Cert.ReferenceIdeal.Read.val_main_v29 (F := Ideal) x0 x1
      = fun _ => Chamfer.loss (Chamfer.cloudOf x0 shapeCasts_S2x8x4096x3_S16x4096x3)
          (Chamfer.cloudOf x1 shapeCasts_S2x8x4096x3_S16x4096x3) := by
  funext i
  rw [Read.val_main_v29_apply, Read.val_main_v28_apply, Read.val_main_cst_9_apply, Read.val_main_cst_10_apply,
    Chamfer.sum_idx1]
  simp only [Ideal.hostDivf_def, Ideal.ofBits_def]
  unfold Chamfer.loss
  refine congrArg (fun s => Ideal.div (Chamfer.wZero + s) Chamfer.wB) (Finset.sum_congr rfl fun b _ => ?_)
  exact v27_ix x0 x1 b

end Cert.ReferenceIdeal.RefValue

end
-- ==== Proof.lean ====
/-
  A Chamfer loss over sixteen pairs of point clouds (4096 points, three coordinates each), computed by a tiled
  kernel and by a plain array program, is one function of the two argument arrays over the extended reals.

  For a cloud pair, let d(i, j) = sqrt (max (‖xᵢ‖² − 2⟨xᵢ, yⱼ⟩ + ‖yⱼ‖², 0)) be the distance of prediction point i
  and target point j. The pair's loss is (Σⱼ minᵢ d(i, j) + Σᵢ minⱼ d(i, j)) / 4096, and the result is the mean
  of the sixteen pairs' losses.

  * The reference forms the whole distance array, takes the two minima, divides each sum by 4096 and adds the
    quotients. Division by the real 4096 is multiplication by the nonnegative real 1/4096, which distributes over
    the sum of any two extended reals, so the two quotients add up to the quotient of the sum
    (Chamfer.div_add_div; RefLoss.lean).
  * The kernel walks a 16 × 16 grid: position t is tile t mod 16 of cloud pair t div 16, and sees prediction points
    256 (t mod 16) ... 256 (t mod 16) + 255 against all 4096 target points. It keeps, across a pair's sixteen tiles,
    the running column minima and the running sum of row minima, reset at the pair's first tile, and at the last tile
    stores (Σⱼ minima + sum) / 4096. A minimum, or a sum, over 4096 points taken 256 at a time is the minimum, or
    the sum, over the points seen so far (Chamfer.minUpTo_tile, sumUpTo_tile), so by recursion on the grid position
    the accumulators after the sixteenth tile are the full column minima and the full sum (GridInvariant.lean), the
    stored block is the pair's loss, the sixteen blocks tile the output array, and the host lines after the region
    average the blocks' corner entries (KernelValue.lean).
  * Both programs first merge the two leading axes of each argument; the clouds are read through that one reshape on
    both sides, and the float words (0, 2, +∞, 4096, 16) are the same words on both sides: only the zero word and
    the word for 4096 are ever evaluated.

  The three programs' runs (termination, no fault, arguments unchanged) are the frame runs of the two kernel
  programs and the reference's run with its result dropped; the idealization rewrote nothing.
-/
import proofs.«124083_j42932493091334_2_alg».proof.Defs
import proofs.«124083_j42932493091334_2_alg».proof.Proof.Gen.Kernel
import proofs.«124083_j42932493091334_2_alg».proof.Proof.Gen.Kernel.Frame
import proofs.«124083_j42932493091334_2_alg».proof.Proof.Gen.KernelIdeal
import proofs.«124083_j42932493091334_2_alg».proof.Proof.Gen.KernelIdeal.Frame
import proofs.«124083_j42932493091334_2_alg».proof.Proof.Gen.ReferenceIdeal
import proofs.«124083_j42932493091334_2_alg».proof.Proof.Gen.ReferenceIdeal.Run
import proofs.«124083_j42932493091334_2_alg».proof.Proof.Gen.ReferenceIdeal.Read
import proofs.«124083_j42932493091334_2_alg».proof.Proof.Gen.Pre_finite_inputs
import proofs.«124083_j42932493091334_2_alg».proof.Proof.KernelValue
import proofs.«124083_j42932493091334_2_alg».proof.Proof.RefLoss
import Idealize.ShloMosaic.Adequacy
import Idealize.ShloMosaic.Init

noncomputable section

namespace Cert.Proof

open Idealize.ShloMosaic Idealize.SL.Sem

/-- The word-level kernel program runs and leaves its arguments unchanged. -/
theorem frame_kernel : Cert.frame_Kernel := fun m ρ _ => Cert.Kernel.Gen.frame m ρ

/-- So does its idealization. -/
theorem frame_ideal : Cert.frame_KernelIdeal := fun m ρ _ => Cert.KernelIdeal.Gen.frame m ρ

/-- The reference runs and leaves its arguments unchanged: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From arguments that agree, both idealized programs end at the Chamfer loss of the arguments' clouds. -/
theorem algebraic : Cert.algebraic_KernelIdeal_ReferenceIdeal := by
  intro m ρ m' ρ' _ hagree
  refine ⟨fun c => fun _ => Chamfer.loss (Cert.KernelIdeal.Grid.predCloud m c) (Cert.KernelIdeal.Grid.tgtCloud m c),
    Cert.KernelIdeal.Result.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v29_eq, Cert.ReferenceIdeal.RefValue.ref_eq, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
